-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x512 : Shape := ⟨2, ![8192, 512]⟩
abbrev S1024x512 : Shape := ⟨2, ![1024, 512]⟩
abbrev S1024 : Shape := ⟨1, ![1024]⟩
abbrev S1024x1 : Shape := ⟨2, ![1024, 1]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S256x512 : Shape := ⟨2, ![256, 512]⟩
abbrev S256x1 : Shape := ⟨2, ![256, 1]⟩
abbrev S256x8192 : Shape := ⟨2, ![256, 8192]⟩
abbrev S256 : Shape := ⟨1, ![256]⟩

abbrev nBuf : Space → Nat
  | .hbm => 9
  | .vmem => 15
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S1x8192, .f32⟩
  | .hbm, ⟨8, _⟩ => ⟨S8192x8192, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S256x512, .f32⟩
  | .local _ .vmem, ⟨7, _⟩ => ⟨S256x512, .f32⟩
  | .local _ .vmem, ⟨8, _⟩ => ⟨S8192x512, .f32⟩
  | .local _ .vmem, ⟨9, _⟩ => ⟨S256x1, .f32⟩
  | .local _ .vmem, ⟨10, _⟩ => ⟨S256x1, .f32⟩
  | .local _ .vmem, ⟨11, _⟩ => ⟨S1x8192, .f32⟩
  | .local _ .vmem, ⟨12, _⟩ => ⟨S256x8192, .f32⟩
  | .local _ .vmem, ⟨13, _⟩ => ⟨S256x8192, .f32⟩
  | .local _ .vmem, ⟨14, _⟩ => ⟨S8192x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x8192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x8192 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  broadcasts_S1024x1_S1024x512 : S1024x1.Broadcasts S1024x512
  reducesTo_S8192x512_S8192_d1 : S8192x512.ReducesTo [1] S8192
  h_S_ : 0 < S_.numel
  bcast_S8192_S8192x1_0 : S8192.BroadcastsInDim S8192x1 (![0] : Fin 1 → Fin S8192x1.rank)
  shapeCasts_S8192x1_S1x8192 : S8192x1.ShapeCasts S1x8192
  inb_S8192x512_S8192x512_0_0 : ∀ a, (![0, 0] : Fin 2 → Nat) a + S8192x512.size a ≤ S8192x512.size a
  h_S8192x512 : 0 < S8192x512.numel
  shapeCasts_S8192x512_S8192x512 : S8192x512.ShapeCasts S8192x512
  bitsLt_bf16_f32 : FTy.bits .bf16 < FTy.bits .f32
  packedbf16_S8192x512_S8192x512_0_0 : (Rect.unit (s := S8192x512) ![0, 0] S8192x512.size inb_S8192x512_S8192x512_0_0).PackedRows (EltTy.packing .bf16)
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S256x1_S256x8192 : S256x1.Broadcasts S256x8192
  broadcasts_S1x8192_S256x8192 : S1x8192.Broadcasts S256x8192
  iota_S256x8192_d0_w32 : S256x8192.Iotas .tc 32 [0]
  iota_S256x8192_d1_w32 : S256x8192.Iotas .tc 32 [1]
  reduces_S256x8192_S256 : S256x8192.Reduces [1] S256
  shapeCasts_S256_S256x1 : S256.ShapeCasts S256x1
  inb_S256x8192_S256x8192_0_0 : ∀ a, (![0, 0] : Fin 2 → Nat) a + S256x8192.size a ≤ S256x8192.size a
  h_S256x8192 : 0 < S256x8192.numel
  dot_S256x512_S8192x512_S256x8192_1_1_0_0_n_n_wf : DotDims.WF S256x512 S8192x512 S256x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x512.size a
  hwx0_2 : ∀ i : grid0.Coords, EltTy.bits .f32 = 32 ∨ (Rect.block (s := S8192x512) S1024x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S8192x512.size a
  hwx1_0 : ∀ i : grid1.Coords, EltTy.bits .f32 = 32 ∨ (Rect.block (s := S8192x512) S256x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x512.size a ≤ S8192x512.size a
  hwx1_1 : ∀ i : grid1.Coords, EltTy.bits .f32 = 32 ∨ (Rect.block (s := S8192x512) S8192x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S8192x1.size a
  hwx1_2 : ∀ i : grid1.Coords, EltTy.bits .f32 = 32 ∨ (Rect.block (s := S8192x1) S256x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8192.size a ≤ S1x8192.size a
  hwx1_3 : ∀ i : grid1.Coords, EltTy.bits .f32 = 32 ∨ (Rect.block (s := S1x8192) S1x8192.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x8192.size a ≤ S8192x8192.size a
  hwx1_4 : ∀ i : grid1.Coords, EltTy.bits .f32 = 32 ∨ (Rect.block (s := S8192x8192) S256x8192.size (cc1_transform_4 i) (hinb1_4 i)).WholeWords (EltTy.packing .f32)

variable [Facts₀]

def dot_S256x512_S8192x512_S256x8192_1_1_0_0_n_n : DotDims S256x512 S8192x512 S256x8192 where
  lhsContracting := [1]
  rhsContracting := [1]
  lhsNonContracting := [0]
  rhsNonContracting := [0]
  lhsBatch := []
  rhsBatch := []
  wf := dot_S256x512_S8192x512_S256x8192_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S8192x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S256x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x8192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S256x8192.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S512x8192 : Shape := ⟨2, ![512, 8192]⟩

abbrev nBuf : Space → Nat
  | .hbm => 58
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .i1⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S1x8192, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S512x8192, .f32⟩
  | .hbm, ⟨28, _⟩ => ⟨S8192x8192, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S8192x8192, .i32⟩
  | .hbm, ⟨36, _⟩ => ⟨S8192x8192, .i32⟩
  | .hbm, ⟨37, _⟩ => ⟨S_, .i32⟩
  | .hbm, ⟨38, _⟩ => ⟨S8192x8192, .i32⟩
  | .hbm, ⟨39, _⟩ => ⟨S8192x8192, .i32⟩
  | .hbm, ⟨40, _⟩ => ⟨S8192x8192, .i1⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .i1⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x8192, .f32⟩
  | .hbm, ⟨57, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_call1_v0 : Ref sig .tc := ⟨.hbm, 53, rfl⟩
abbrev main_call1_v1 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x512_S512x8192_1_0 : S8192x512.Transposes [1, 0] S512x8192
  bcast_S_S8192x8192 : S_.BroadcastsInDim S8192x8192 (![] : Fin 0 → Fin S8192x8192.rank)
  transposes_S8192x8192_S8192x8192_1_0 : S8192x8192.Transposes [1, 0] S8192x8192
  reducesTo_S8192x8192_S8192_d1 : S8192x8192.ReducesTo [1] S8192
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.FeatFrameK.lean ====
/-
  The first pipeline of the program (the feature kernel: a grid of 8 points, blocks of 1024 rows of the two argument
  arrays, one output block per point), at a parameter V — the buffer contents when the pipeline is entered: each
  window's block at a point, what the body leaves in the output's staging buffer, the body's triple, the pipeline's
  proof data and its body obligation. Stated at any float interpretation.
-/
import proofs.«152750_j55465207660970_2_alg».proof.Proof.Gen.Kernel.Launch
import proofs.«152750_j55465207660970_2_alg».proof.Proof.Gen.Kernel.Skeleton
import proofs.«152750_j55465207660970_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 1024 by 512: the structural look recurses once per coordinate of the long axes
set_option maxRecDepth 16384

noncomputable section

namespace Cert.Kernel.Feat

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the pipeline is entered: the parameter everything below is stated at
variable (V : (c : Dev nD) → (b : Ref sig .tc) → Buf (Elt F) ((c : Thread nD τ).loc b))

/-! ## The windows' blocks -/

/-- Window w's block at point t, read off its array as the pipeline finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    the entry contents and whose body leaves the block in place: the window is fetched whole at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The one rectangle the body reads and writes: the whole 1024 by 512 block. -/
abbrev r0 : Rect S1024x512 := Rect.unit (s := S1024x512) ![0, 0] S1024x512.size inb_S1024x512_S1024x512_0_0

/-! ## What the body leaves in the output window's buffer -/

/-- Window 2's staging buffer after the body, from the two input blocks: its one store, of the payload of the two loads. -/
def out0_2 (x0 : Vec F S1024x512 .f32) (x1 : Vec F S1024x512 .f32) : Vec F S1024x512 .f32 :=
  View.canon [⟨r0, k0_pay1 (View.ld x0 r0) (View.ld x1 r0)⟩]

/-- The store covers the buffer. -/
theorem cover0_2 (p0 : Vec F S1024x512 .f32) (y : S1024x512.Idx) :
    ∃ pc ∈ ([⟨r0, p0⟩] : List (View.Piece (Elt F) S1024x512 .f32)), y ∈ pc.1.set :=
  View.cover_of_tiled [⟨r0, p0⟩] S1024x512.size (by rfl) y

/-! ## The body's triple -/

set_option maxHeartbeats 1000000 in
/-- The body on whole staging memrefs, the inputs' at contents x0, x1 and the output's at anything, runs to the
    continuation holding the inputs' as they were and the output's at out0_2 of the inputs': the body's load of the
    output buffer reads whatever is there and its value is not used. -/
theorem sound_kernel0 (c : Dev nD) (E : Set ℕ) (i : grid0.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole)
    (x0 : Vec F S1024x512 .f32) (x1 : Vec F S1024x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__feature_kernel i arg1 harg1 arg2 harg2 arg3 harg3) K := by
  simp only [cc0__feature_kernel_eq_skeleton]; unfold cc0__feature_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core c: the arrays as the pipeline finds them; after the body at point t each
    input's buffer at its block and the output's at out0_2 of the input blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Feat

end
-- ==== Proof.AdjFrameK.lean ====
import proofs.«152750_j55465207660970_2_alg».proof.Proof.Gen.Kernel.Launch
import proofs.«152750_j55465207660970_2_alg».proof.Proof.Gen.Kernel.Skeleton
import proofs.«152750_j55465207660970_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Adj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel region (the row strips of the normalised matrix), entered at contents `V`

The body at a grid point reads a strip of 256 rows of the feature array (window 0), the whole feature array
(window 1, fetched once), the 256 row sums of squares (window 2) and all the column sums of squares (window 3);
at the first point it copies the whole feature array into a scratch buffer, which every point then reads;
it writes one strip of 256 rows of the result (window 4). -/

/-- The offsets of a whole-block access are zero on both axes. -/
theorem hz2 : (![0, 0] : Fin 2 → Nat) = fun _ => 0 := by
  funext a; match a with | ⟨0, _⟩ => rfl | ⟨1, _⟩ => rfl

/-- The body's branch condition from the grid coordinate: it holds at the first point only. -/
abbrev cond1 (i : grid1.Coords) : Prop :=
  (Scalar.cmpi .ne (Scalar.extui (Scalar.cmpi .eq (BitVec.ofNat 32 (i 0).val) 0#32)) 0#32) = 1#1

theorem hcond1 : ∀ t : Fin cfg1.N, cond1 (grid1.coords t) ↔ t.val = 0 :=
  (by decide +kernel : ∀ t : Fin grid1.N, cond1 (grid1.coords t) ↔ t.val = 0)

abbrev rA : Rect S256x512 := Rect.unit (s := S256x512) ![0, 0] S256x512.size inb_S256x512_S256x512_0_0
abbrev rF : Rect S8192x512 := Rect.unit (s := S8192x512) ![0, 0] S8192x512.size inb_S8192x512_S8192x512_0_0
abbrev rQ : Rect S256x1 := Rect.unit (s := S256x1) ![0, 0] S256x1.size inb_S256x1_S256x1_0_0
abbrev rC : Rect S1x8192 := Rect.unit (s := S1x8192) ![0, 0] S1x8192.size inb_S1x8192_S1x8192_0_0
abbrev rO : Rect S256x8192 := Rect.unit (s := S256x8192) ![0, 0] S256x8192.size inb_S256x8192_S256x8192_0_0

/-- One store through the whole block covers it. -/
theorem coverO (p0 : Vec F S256x8192 .f32) (y : S256x8192.Idx) :
    ∃ pc ∈ ([⟨rO, p0⟩] : List (View.Piece (Elt F) S256x8192 .f32)), y ∈ pc.1.set :=
  View.cover_of_tiled [⟨rO, p0⟩] S256x8192.size (by rfl) y
theorem coverF (p0 : Vec F S8192x512 .bf16) (y : S8192x512.Idx) :
    ∃ pc ∈ ([⟨rF, p0⟩] : List (View.Piece (Elt F) S8192x512 .bf16)), y ∈ pc.1.set :=
  View.cover_of_tiled [⟨rF, p0⟩] S8192x512.size (by rfl) y

set_option maxHeartbeats 2000000 in
/-- The body at the first point: it fills the scratch with the narrowed feature array and writes the strip
    computed from the loaded blocks and that scratch. -/
theorem sound_first (c : Dev nD) (E : Set ℕ) (i : grid1.Coords) (hc : cond1 i)
    (arg1 : Memref sig .tc .vmem S256x512 .f32) (harg1 : arg1.IsWhole) (arg2 : Memref sig .tc .vmem S8192x512 .f32) (harg2 : arg2.IsWhole)
    (arg3 : Memref sig .tc .vmem S256x1 .f32) (harg3 : arg3.IsWhole) (arg4 : Memref sig .tc .vmem S1x8192 .f32) (harg4 : arg4.IsWhole)
    (arg5 : Memref sig .tc .vmem S256x8192 .f32) (harg5 : arg5.IsWhole) (arg6 : Memref sig .tc .vmem S8192x512 .bf16) (harg6 : arg6.IsWhole)
    (x0 : Vec F S256x512 .f32) (x1 : Vec F S8192x512 .f32) (x2 : Vec F S256x1 .f32) (x3 : Vec F S1x8192 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k1_pay2 i x0 (k1_pay1 x1) x2 x3) ∗ owns (c : Thread nD τ) arg6 fullShare (k1_pay1 x1)) -∗ K ⟨⟩))
      ⊢ wp frame (wpE (defs₀ (F := F)) Variants.none c none) E (cc1__adj_kernel i arg1 harg1 arg2 harg2 arg3 harg3 arg4 harg4 arg5 harg5 arg6 harg6) K := by
  simp only [cc1__adj_kernel_eq_skeleton]; unfold cc1__adj_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.read_writes_eq_canon _ _ _ (coverO _), View.canon_unit_zero (S := _) hz2]
    simp only [View.readAt_eq_ld, View.ld_unit_zero (S := S256x512) hz2, View.ld_unit_zero (S := S8192x512) hz2, View.ld_unit_zero (S := S256x1) hz2, View.ld_unit_zero (S := S1x8192) hz2, View.readCov_unit_zero (S := S8192x512) _ hz2]
  · iexists _; isplitr
    swap; · iexact H5
    ipureintro
    sl_unfold_run_names
    rw [View.read_writes_eq_canon _ _ _ (coverF _), View.canon_unit_zero (S := _) hz2]
    simp only [View.readAt_eq_ld, View.ld_unit_zero (S := S256x512) hz2, View.ld_unit_zero (S := S8192x512) hz2, View.ld_unit_zero (S := S256x1) hz2, View.ld_unit_zero (S := S1x8192) hz2]

set_option maxHeartbeats 2000000 in
/-- The body at a later point: the scratch is read, not written. -/
theorem sound_later (c : Dev nD) (E : Set ℕ) (i : grid1.Coords) (hc : ¬cond1 i)
    (arg1 : Memref sig .tc .vmem S256x512 .f32) (harg1 : arg1.IsWhole) (arg2 : Memref sig .tc .vmem S8192x512 .f32) (harg2 : arg2.IsWhole)
    (arg3 : Memref sig .tc .vmem S256x1 .f32) (harg3 : arg3.IsWhole) (arg4 : Memref sig .tc .vmem S1x8192 .f32) (harg4 : arg4.IsWhole)
    (arg5 : Memref sig .tc .vmem S256x8192 .f32) (harg5 : arg5.IsWhole) (arg6 : Memref sig .tc .vmem S8192x512 .bf16) (harg6 : arg6.IsWhole)
    (x0 : Vec F S256x512 .f32) (x1 : Vec F S8192x512 .f32) (x2 : Vec F S256x1 .f32) (x3 : Vec F S1x8192 .f32) (s : Vec F S8192x512 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare s
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k1_pay2 i x0 s x2 x3) ∗ owns (c : Thread nD τ) arg6 fullShare s) -∗ K ⟨⟩))
      ⊢ wp frame (wpE (defs₀ (F := F)) Variants.none c none) E (cc1__adj_kernel i arg1 harg1 arg2 harg2 arg3 harg3 arg4 harg4 arg5 harg5 arg6 harg6) K := by
  simp only [cc1__adj_kernel_eq_skeleton]; unfold cc1__adj_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0; subst hf1; subst hf2; subst hf3; subst hf5
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.read_writes_eq_canon _ _ _ (coverO _), View.canon_unit_zero (S := _) hz2]
    simp only [View.readAt_eq_ld, View.ld_unit_zero (S := S256x512) hz2, View.ld_unit_zero (S := S8192x512) hz2, View.ld_unit_zero (S := S256x1) hz2, View.ld_unit_zero (S := S1x8192) hz2]
  · iexists f5; isplitr; · ipureintro; rfl
    iexact H5

/-! ## The windows' blocks, the proof data and the body obligation -/

section Data

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The first grid point. -/
def t0 : Fin cfg1.N := ⟨0, lt_of_lt_of_eq (by decide : 0 < 32) (show cfg1.N = 32 from N_1).symm⟩

/-- What the scratch buffer holds from the first point on: the whole feature array, narrowed. -/
def scr (c : Dev nD) : Vec F S8192x512 .bf16 := k1_pay1 (iblk1 V c 1 t0)

/-- The scratch buffer as a memref. -/
abbrev scM : Memref sig .tc .vmem S8192x512 .bf16 := Memref.whole cc1_scratch0

/-- The region's invariant before point `n`: before the first point every scoped buffer that is no staging buffer
    of this call at some contents; afterwards the same with the scratch at the narrowed feature array. -/
def PhiS (c : Dev nD) : ℕ → sProp 𝕄
  | 0 => Pipeline.ΦA spec1 c
  | _ + 1 => iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM fullShare (scr V c)) ∗ ∃ r, prngReg c r)

theorem PhiS_pos (c : Dev nD) (n : ℕ) (hn : n ≠ 0) :
    PhiS V c n = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM fullShare (scr V c)) ∗ ∃ r, prngReg c r) := by
  cases n with
  | zero => exact absurd rfl hn
  | succ n => rfl

/-- The class invariant with the scratch as a memref owned at some contents. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM fullShare d)) ∗ ∃ r, prngReg c r) := by
  unfold Pipeline.ΦA; rw [scopedRest1_eq]; simp only [scM, owns_whole]; try rfl

/-- The proof data: the arrays as the region finds them; after the body each input's buffer at its block and the
    output's at the strip computed from the blocks and the scratch; the feature array is held by windows 0 and 1
    at the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay2 (grid1.coords t) (iblk1 V c 0 t) (scr V c) (iblk1 V c 2 t) (iblk1 V c 3 t)
  Φ t := PhiS V c t.val
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = k1_pay2 (grid1.coords t) (iblk1 V c 0 t) (scr V c) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

theorem Phi_castSucc (c : Dev nD) (t : Fin cfg1.N) : (dat1 V c).Φ t.castSucc = PhiS V c t.val := by
  dsimp only [dat1]; simp only [Fin.coe_castSucc]
theorem Phi_succ (c : Dev nD) (t : Fin cfg1.N) : (dat1 V c).Φ t.succ = PhiS V c (t.val + 1) := rfl

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 2000000 in
/-- The body at any point: at the first the scratch is at anything and is filled; afterwards it holds the narrowed
    feature array and is only read. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    after1_0, after1_1, after1_2, after1_3, after1_4, Phi_castSucc, Phi_succ, PhiS_pos V c (t.val + 1) (Nat.succ_ne_zero _)]
  by_cases hz : t.val = 0
  · obtain rfl : t = t0 := Fin.ext hz
    rw [show PhiS V c (t0 : Fin cfg1.N).val = Pipeline.ΦA spec1 c from rfl, PhiA1_eq]
    iintro ⟨⟨⟨HA1, HA2, HA3, HA4, HA5, HA6, HS⟩, Hg⟩, Ho, ⟨%d0, H0⟩, ⟨%d1, H1⟩, ⟨%d2, H2⟩, ⟨%d3, H3⟩, ⟨%d4, H4⟩⟩
    iapply (sound_first c Set.univ (grid1.coords t0) ((hcond1 t0).mpr rfl) _ _ _ _ _ _ _ _ _ _ _ _
      (iblk1 V c 0 t0) (iblk1 V c 1 t0) (iblk1 V c 2 t0) (iblk1 V c 3 t0) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HA1 HA2 HA3 HA4 HA5 HA6 HS Hg]
    · isplitr [Hg]
      · isplitl [HA1]; · iexact HA1
        isplitl [HA2]; · iexact HA2
        isplitl [HA3]; · iexact HA3
        isplitl [HA4]; · iexact HA4
        isplitl [HA5]; · iexact HA5
        isplitl [HA6]; · iexact HA6
        iexact HS
      · iexact Hg
    isplitl [Ho]; · iexact Ho
    isplitl [H0]; · iexact H0
    isplitl [H1]; · iexact H1
    isplitl [H2]; · iexact H2
    isplitl [H3]; · iexact H3
    iexact H4
  · rw [PhiS_pos V c t.val hz]
    iintro ⟨⟨⟨HA1, HA2, HA3, HA4, HA5, HA6, HS⟩, Hg⟩, Ho, ⟨%d0, H0⟩, ⟨%d1, H1⟩, ⟨%d2, H2⟩, ⟨%d3, H3⟩, ⟨%d4, H4⟩⟩
    iapply (sound_later c Set.univ (grid1.coords t) (fun h => hz ((hcond1 t).mp h)) _ _ _ _ _ _ _ _ _ _ _ _
      (iblk1 V c 0 t) (iblk1 V c 1 t) (iblk1 V c 2 t) (iblk1 V c 3 t) (scr V c) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HA1 HA2 HA3 HA4 HA5 HA6 HS Hg]
    · isplitr [Hg]
      · isplitl [HA1]; · iexact HA1
        isplitl [HA2]; · iexact HA2
        isplitl [HA3]; · iexact HA3
        isplitl [HA4]; · iexact HA4
        isplitl [HA5]; · iexact HA5
        isplitl [HA6]; · iexact HA6
        iexact HS
      · iexact Hg
    isplitl [Ho]; · iexact Ho
    isplitl [H0]; · iexact H0
    isplitl [H1]; · iexact H1
    isplitl [H2]; · iexact H2
    isplitl [H3]; · iexact H3
    iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

end Data

end Cert.Kernel.Adj

end
-- ==== Proof.RunDefsK.lean ====
import proofs.«152750_j55465207660970_2_alg».proof.Proof.Gen.Kernel.Launch
import proofs.«152750_j55465207660970_2_alg».proof.Proof.Gen.Kernel.Skeleton
import proofs.«152750_j55465207660970_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«152750_j55465207660970_2_alg».proof.Proof.FeatFrameK
import proofs.«152750_j55465207660970_2_alg».proof.Proof.AdjFrameK
import proofs.«152750_j55465207660970_2_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The buffer contents between the program's items, with both kernels' results named -/

variable (m : (ℓ : Loc nD τ sig) → Buf (Elt F) ℓ)

/-- The launch contents, read at the TensorCore's references: what the first kernel region is entered at. -/
abbrev Va : (c : Dev nD) → (b : Ref sig .tc) → Buf (Elt F) ((c : Thread nD τ).loc b) := fun c b => Gen.V0 m c b

/-- What the first kernel region leaves in its result array. -/
def out0 (c : Dev nD) : Buf (Elt F) ((c : Thread nD τ).loc main_v0) := (Feat.dat0 (Va m) c).arrAt 2 cfg0.N

/-- The contents after the first region, -/
abbrev W1 (c : Dev nD) : Valuation τ sig (Elt F) := Function.update (Gen.V0 m c) main_v0 (out0 m c)
/-- after the host operations between the regions, -/
abbrev W2 (c : Dev nD) : Valuation τ sig (Elt F) := StableHlo.after hostOps1 (W1 m c)
/-- the same read at the TensorCore's references: what the second kernel region is entered at. -/
abbrev Vb : (c : Dev nD) → (b : Ref sig .tc) → Buf (Elt F) ((c : Thread nD τ).loc b) := fun c b => W2 m c b

/-- What the second kernel region leaves in its result array. -/
def out5 (c : Dev nD) : Buf (Elt F) ((c : Thread nD τ).loc main_v5) := (Adj.dat1 (Vb m) c).arrAt 4 cfg1.N

/-- The contents after the second region: the end of the program. -/
abbrev W3 (c : Dev nD) : Valuation τ sig (Elt F) := Function.update (W2 m c) main_v5 (out5 m c)

end Cert.Kernel.Run

end
-- ==== Proof.RunK.lean ====
import proofs.«152750_j55465207660970_2_alg».proof.Proof.Gen.Kernel.Launch
import proofs.«152750_j55465207660970_2_alg».proof.Proof.Gen.Kernel.Skeleton
import proofs.«152750_j55465207660970_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«152750_j55465207660970_2_alg».proof.Proof.RunDefsK

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

/-! # The program's run with both kernels' results named

The program is: the first kernel region, five host operations, the second kernel region. Between two items the
TensorCore holds every unscoped buffer at a named valuation (the launch contents; then the first region's result
array at what its write-backs leave; then the host operations applied; then the second region's result array at
what its write-backs leave), its generator register at some state, and owes nothing. The second region is handed
the feature array through two of its windows: the array's full share is dealt to them in halves at the region's
entry and joined again at its exit. -/

/-! ## The second region's arrays and shares -/

section Shares
variable (V : (c : Dev nD) → (b : Ref sig .tc) → Buf (Elt F) ((c : Thread nD τ).loc b))

theorem share1_0 (c : Dev nD) : (Adj.dat1 V c).share 0 = fullShare.left := rfl
theorem share1_1 (c : Dev nD) : (Adj.dat1 V c).share 1 = fullShare.right := rfl
theorem share1_2 (c : Dev nD) : (Adj.dat1 V c).share 2 = fullShare := rfl
theorem share1_3 (c : Dev nD) : (Adj.dat1 V c).share 3 = fullShare := rfl
theorem share1_4 (c : Dev nD) : (Adj.dat1 V c).share 4 = fullShare := rfl

theorem arrays1_pt (c : Dev nD) (w : Fin cfg1.W) (q : PosShare TreeShare) (g : Buf (Elt F) ((cfg1.win w).arr.view.loc (c : Thread nD τ))) :
    ((cfg1.win w).arr.view.loc (c : Thread nD τ) ↦[(cfg1.win w).arr.view.set]{q} g : sProp 𝕄)
      = (((c : Thread nD τ).loc (Pipeline.arrRef spec1 w)) ↦{q} g) := by
  rw [(arr_whole1 w).set_eq_univ]

/-- The region's arrays, window by window: the feature array twice, at the two halves of the full share. -/
theorem arrays1_eq (c : Dev nD) (G : (w : Fin cfg1.W) → Buf (Elt F) ((cfg1.win w).arr.view.loc (c : Thread nD τ))) :
    ((Adj.dat1 V c).arrays G : sProp 𝕄)
      = iprop((((c : Thread nD τ).loc main_v0) ↦{fullShare.left} G 0) ∗ (((c : Thread nD τ).loc main_v0) ↦{fullShare.right} G 1)
          ∗ (((c : Thread nD τ).loc main_v3) ↦{fullShare} G 2) ∗ (((c : Thread nD τ).loc main_v4) ↦{fullShare} G 3)
          ∗ (((c : Thread nD τ).loc main_v5) ↦{fullShare} G 4)) := by
  unfold Dat.arrays
  rw [bigSep_congr fun w _ => arrays1_pt c w _ _, bigSep_W1, share1_0, share1_1, share1_2, share1_3, share1_4]

/-- The distinct buffers behind the region's arrays. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v0) ↦{fullShare} W main_v0) ∗ (((c : Thread nD τ).loc main_v3) ↦{fullShare} W main_v3)
          ∗ (((c : Thread nD τ).loc main_v4) ↦{fullShare} W main_v4) ∗ (((c : Thread nD τ).loc main_v5) ↦{fullShare} W main_v5)) := by
  unfold Pipeline.arrBufs
  exact bigSep_eq_bigSepL_of_eq [main_v0, main_v3, main_v4, main_v5] (by decide) (by decide) _

/-- A core's unscoped buffers at a valuation: the four buffers behind the region's arrays and the rest. -/
theorem held_split1 (c : Dev nD) (W : Valuation τ sig (Elt F)) :
    (StableHlo.held (c : Thread nD τ) (Pipeline.ucRefs τ sig) W : sProp 𝕄)
      = iprop(iprop((((c : Thread nD τ).loc main_v0) ↦{fullShare} W main_v0) ∗ (((c : Thread nD τ).loc main_v3) ↦{fullShare} W main_v3)
          ∗ (((c : Thread nD τ).loc main_v4) ↦{fullShare} W main_v4) ∗ (((c : Thread nD τ).loc main_v5) ↦{fullShare} W main_v5))
          ∗ Pipeline.unscopedRest (Ix := Unit) (Name := ℕ) (U := UR sig nD τ) (Lvl := ℕ) spec1 c (fun b => W b)) := by
  rw [← Pipeline.unscopedBufs_held (Ix := Unit) (Name := ℕ) (U := UR sig nD τ) (Lvl := ℕ) c W,
    Pipeline.unscopedBufs_split₀ (Ix := Unit) (Name := ℕ) (U := UR sig nD τ) (Lvl := ℕ) cfgs (1 : Fin 2) winFacts₀1.arr_unscoped c (fun b => W b)]
  show iprop(Pipeline.arrBufs (Ix := Unit) (Name := ℕ) (U := UR sig nD τ) (Lvl := ℕ) spec1 c (fun b => W b) ∗ Pipeline.unscopedRest (Ix := Unit) (Name := ℕ) (U := UR sig nD τ) (Lvl := ℕ) spec1 c (fun b => W b)) = _
  rw [arrBufs1_eq]

/-- The feature array's full share is the two halves. -/
theorem v0_halves (c : Dev nD) (g : Buf (Elt F) ((c : Thread nD τ).loc main_v0)) :
    ((((c : Thread nD τ).loc main_v0) ↦{fullShare} g : sProp 𝕄) ⊢ iprop((((c : Thread nD τ).loc main_v0) ↦{fullShare.left} g) ∗ (((c : Thread nD τ).loc main_v0) ↦{fullShare.right} g)))
    ∧ (iprop((((c : Thread nD τ).loc main_v0) ↦{fullShare.left} g) ∗ (((c : Thread nD τ).loc main_v0) ↦{fullShare.right} g)) ⊢ ((((c : Thread nD τ).loc main_v0) ↦{fullShare} g : sProp 𝕄))) :=
  ⟨(pointsTo_share (PosShare.mem_left_op_right fullShare)).1, (pointsTo_share (PosShare.mem_left_op_right fullShare)).2⟩

end Shares

variable (m : (ℓ : Loc nD τ sig) → Buf (Elt F) ℓ)

/-! ## What each region's arrays hold at its exit, against the next valuation -/

theorem hF0 (c : Dev nD) : ∀ w : Fin cfg0.W, (Feat.dat0 (Va m) c).arrAt w cfg0.N = W1 m c (Pipeline.arrRef spec0 w)
  | ⟨0, _⟩ => ((Feat.dat0 (Va m) c).arrAt_in 0 rfl _).trans ((Feat.A_eq0 (Va m) c 0).trans
      (Function.update_of_ne (StableHlo.devRef_ne_of_ne (by decide) : (Proc.devRef .tc main_arg0 : DevRef τ sig) ≠ Proc.devRef .tc main_v0) _ _).symm)
  | ⟨1, _⟩ => ((Feat.dat0 (Va m) c).arrAt_in 1 rfl _).trans ((Feat.A_eq0 (Va m) c 1).trans
      (Function.update_of_ne (StableHlo.devRef_ne_of_ne (by decide) : (Proc.devRef .tc main_arg1 : DevRef τ sig) ≠ Proc.devRef .tc main_v0) _ _).symm)
  | ⟨2, _⟩ => (Function.update_self (Proc.devRef .tc main_v0 : DevRef τ sig) (out0 m c) (Gen.V0 m c)).symm

theorem hrest0 (c : Dev nD) : ∀ b, b ∉ Finset.univ.image (Pipeline.arrRef spec0) → (fun b : Ref sig .tc => W1 m c b) b = Va m c b :=
  fun b hb => Function.update_of_ne (StableHlo.devRef_ne_of_ne (fun e : b = main_v0 => hb (by subst e; exact Finset.mem_image.mpr ⟨2, Finset.mem_univ _, rfl⟩))) _ _

/-! ## The proof data family and the thread state -/

def pdats : (p : Fin 2) → (c : Dev nD) → Dat τ (Elt F) Unit ℕ (UR sig nD τ) ℕ (Pipeline.pin (pcfgs (F := F)) adm p) c
  | ⟨0, _⟩ => fun c => Feat.dat0 (Va m) c
  | ⟨1, _⟩ => fun c => Adj.dat1 (Vb m) c
abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
/-- The last thread state without the debts. -/
abbrev Tₙ (c : Dev nD) : sProp 𝕄 := iprop(StableHlo.held (c : Thread nD τ) (Pipeline.ucRefs τ sig) (W3 m c) ∗ ∃ r, prngReg c r)

/-- The host operations between the regions as a segment. -/
abbrev hseg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- The first region: entered from the launch contents, left with its result array at what its write-backs leave. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Feat.body_obligation0 (Va m) c).loose
  hwaits := Pipeline.hwaits_of_owed_zero _ _ _ _ L lv 0 fun _ _ => rfl
  pre c := iprop(StableHlo.held (c : Thread nD τ) (Pipeline.ucRefs τ sig) (Gen.V0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Va m c) (fun b => W1 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region -/

section Second
variable (V : (c : Dev nD) → (b : Ref sig .tc) → Buf (Elt F) ((c : Thread nD τ).loc b))

/-- After the last point the invariant gives the scoped rest back: the scratch's contents are forgotten. -/
theorem Phi_out1 (c : Dev nD) : Adj.PhiS V c 32 ⊢ (Pipeline.ΦA spec1 c : sProp 𝕄) := by
  rw [Adj.PhiS_pos V c 32 (by decide), Adj.PhiA1_eq]
  iintro ⟨⟨HA1, HA2, HA3, HA4, HA5, HA6, HS⟩, Hg⟩
  isplitr [Hg]
  · isplitl [HA1]; · iexact HA1
    isplitl [HA2]; · iexact HA2
    isplitl [HA3]; · iexact HA3
    isplitl [HA4]; · iexact HA4
    isplitl [HA5]; · iexact HA5
    isplitl [HA6]; · iexact HA6
    iexists _; iexact HS
  · iexact Hg

theorem e1_0 (c : Dev nD) : (Adj.dat1 V c).arrAt 0 cfg1.N = V c main_v0 := ((Adj.dat1 V c).arrAt_in 0 rfl _).trans (Adj.A_eq1 V c 0)
theorem e1_1 (c : Dev nD) : (Adj.dat1 V c).arrAt 1 cfg1.N = V c main_v0 := ((Adj.dat1 V c).arrAt_in 1 rfl _).trans (Adj.A_eq1 V c 1)
theorem e1_2 (c : Dev nD) : (Adj.dat1 V c).arrAt 2 cfg1.N = V c main_v3 := ((Adj.dat1 V c).arrAt_in 2 rfl _).trans (Adj.A_eq1 V c 2)
theorem e1_3 (c : Dev nD) : (Adj.dat1 V c).arrAt 3 cfg1.N = V c main_v4 := ((Adj.dat1 V c).arrAt_in 3 rfl _).trans (Adj.A_eq1 V c 3)

end Second

theorem W3_of (c : Dev nD) (r : Ref sig .tc) (h : r ≠ main_v5) : W3 m c r = W2 m c r :=
  Function.update_of_ne (StableHlo.devRef_ne_of_ne h) _ _
theorem W3_v5 (c : Dev nD) : W3 m c main_v5 = out5 m c := Function.update_self _ _ _
theorem W2_of (c : Dev nD) (r : Ref sig .tc) (h : r ∉ hostOps1_W) : W2 m c r = W1 m c r :=
  StableHlo.after_of_writes_sub hostOps1 _ hostOps1_writes h
theorem W1_of (c : Dev nD) (r : Ref sig .tc) (h : r ≠ main_v0) : W1 m c r = Gen.V0 m c r :=
  Function.update_of_ne (StableHlo.devRef_ne_of_ne h) _ _
theorem W1_v0 (c : Dev nD) : W1 m c main_v0 = out0 m c := Function.update_self _ _ _

theorem rest1_W3 (c : Dev nD) :
    (Pipeline.unscopedRest (Ix := Unit) (Name := ℕ) (U := UR sig nD τ) (Lvl := ℕ) spec1 c (fun b => W3 m c b) : sProp 𝕄)
      = Pipeline.unscopedRest spec1 c (Vb m c) := by
  unfold Pipeline.unscopedRest
  exact bigSep_congr fun b hb => by
    rw [show (fun b : Ref sig .tc => W3 m c b) b = Vb m c b from
      W3_of m c b (fun e : b = main_v5 => (Finset.mem_sdiff.mp hb).2 (by subst e; exact Finset.mem_image.mpr ⟨4, Finset.mem_univ _, rfl⟩))]

set_option backward.isDefEq.respectTransparency.types false in
/-- The second region: entered from the contents the host operations leave, left with its result array at what its
    write-backs leave. The feature array's full share is halved between windows 0 and 1 at the entry and joined at
    the exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Adj.body_obligation1 (Vb m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vb m c)
  hentry c := by
    rw [Pipeline.ownSems0_none]
    have hsp := held_split1 (F := F) c (W2 m c)
    have hin := arrays1_eq (Vb m) c ((Adj.dat1 (Vb m) c).arrAt · 0)
    iintro ⟨⟨Hub, Hp, HO⟩, -, -⟩
    ihave H := (Entails.of_eq hsp) $$ Hub
    icases H with ⟨⟨H0, H3, H4, H5⟩, Hrest⟩
    ihave H0' := (v0_halves (F := F) c _).1 $$ H0
    icases H0' with ⟨H0l, H0r⟩
    imodintro
    isplitl [H0l H0r H3 H4 H5]
    · iapply (Entails.of_eq hin.symm)
      isplitl [H0l]; · iexact H0l
      isplitl [H0r]; · iexact H0r
      isplitl [H3]; · iexact H3
      isplitl [H4]; · iexact H4
      iexact H5
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ (Pipeline.ΦA spec1 c : sProp 𝕄) from Phi_out1 (Vb m) c).trans ?_
    unfold Pipeline.ΦA
    iintro ⟨Hr, Hp⟩
    isplitl [Hp]; · iexact Hp
    isplitr; · iempintro
    iexact Hr
  hexit c := by
    have hel := arrays1_eq (Vb m) c ((Adj.dat1 (Vb m) c).arrAt · cfg1.N)
    simp only [] at hel
    rw [e1_0, e1_1, e1_2, e1_3] at hel
    have hel' : ((pdats m 1 c).arrays (fun x => (pdats m 1 c).arrAt x (Pipeline.pin (pcfgs (F := F)) adm 1).N) : sProp 𝕄) = _ := hel
    have hsp := held_split1 (F := F) c (W3 m c)
    rw [W3_of m c main_v0 (by decide), W3_of m c main_v3 (by decide), W3_of m c main_v4 (by decide), W3_v5, rest1_W3] at hsp
    refine BIBase.Entails.trans (sep_mono (Entails.of_eq hel') .rfl) ?_
    iintro ⟨⟨H0l, H0r, H3, H4, H5⟩, HO, HY, Hrest⟩
    ihave H0 := (v0_halves (F := F) c _).2 $$ [H0l H0r]
    · isplitl [H0l]; · iexact H0l
      iexact H0r
    imodintro
    isplitr [HO]
    · isplitr [HY]
      · iapply (Entails.of_eq hsp.symm)
        isplitr [Hrest]
        · isplitl [H0]; · iexact H0
          isplitl [H3]; · iexact H3
          isplitl [H4]; · iexact H4
          iexact H5
        · iexact Hrest
      · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m), .host (hseg1 m), .region (reg1 m) ]

theorem main_run (c : Dev nD) : main (F := F) c = Pipeline.Seg.run (segs m) := (main_chain c).trans (by chain_rfl)

theorem W3_main_v0 (c : Dev nD) : W3 m c main_v0 = out0 m c :=
  (W3_of m c main_v0 (by decide)).trans ((W2_of m c main_v0 (by decide)).trans (W1_v0 m c))
theorem W3_main_arg0 (c : Dev nD) : W3 m c main_arg0 = m ((c : Thread nD τ).loc main_arg0) :=
  (W3_of m c main_arg0 (by decide)).trans ((W2_of m c main_arg0 (by decide)).trans ((W1_of m c main_arg0 (by decide)).trans rfl))
theorem W3_main_arg1 (c : Dev nD) : W3 m c main_arg1 = m ((c : Thread nD τ).loc main_arg1) :=
  (W3_of m c main_arg1 (by decide)).trans ((W2_of m c main_arg1 (by decide)).trans ((W1_of m c main_arg1 (by decide)).trans rfl))

set_option backward.isDefEq.respectTransparency.types false in
/-- THE RUN: from any memory with zero counters every weakly fair execution of the program terminates, nothing
    faulting, with the two result arrays at what the two regions' write-backs leave and the arguments as launched. -/
theorem run_named (ρ : Dev nD → PrngReg) : θ_run defs (onTc (τ := τ) (main (F := F))) ⟨m, fun _ => 0, ρ⟩ (fun r => ∀ c : Dev nD,
      r.2.mem ((c.tc : Thread nD τ).loc main_v5) = out5 m c
      ∧ r.2.mem ((c.tc : Thread nD τ).loc main_v0) = out0 m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v5 (by decide))).trans (W3_v5 m c),
       (h c _ (mem_uc main_v0 (by decide))).trans (W3_main_v0 m c),
       (h c _ (mem_uc main_arg0 (by decide))).trans (W3_main_arg0 m c),
       (h c _ (mem_uc main_arg1 (by decide))).trans (W3_main_arg1 m c)⟩)

end Cert.Kernel.Run

end
-- ==== Proof.FeatFrame.lean ====
/-
  The first pipeline of the program (the feature kernel: a grid of 8 points, blocks of 1024 rows of the two argument
  arrays, one output block per point), at a parameter V — the buffer contents when the pipeline is entered: each
  window's block at a point, what the body leaves in the output's staging buffer, the body's triple, the pipeline's
  proof data and its body obligation. Stated at any float interpretation.
-/
import proofs.«152750_j55465207660970_2_alg».proof.Proof.Gen.KernelIdeal.Launch
import proofs.«152750_j55465207660970_2_alg».proof.Proof.Gen.KernelIdeal.Skeleton
import proofs.«152750_j55465207660970_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 1024 by 512: the structural look recurses once per coordinate of the long axes
set_option maxRecDepth 16384

noncomputable section

namespace Cert.KernelIdeal.Feat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the pipeline is entered: the parameter everything below is stated at
variable (V : (c : Dev nD) → (b : Ref sig .tc) → Buf (Elt F) ((c : Thread nD τ).loc b))

/-! ## The windows' blocks -/

/-- Window w's block at point t, read off its array as the pipeline finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    the entry contents and whose body leaves the block in place: the window is fetched whole at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The one rectangle the body reads and writes: the whole 1024 by 512 block. -/
abbrev r0 : Rect S1024x512 := Rect.unit (s := S1024x512) ![0, 0] S1024x512.size inb_S1024x512_S1024x512_0_0

/-! ## What the body leaves in the output window's buffer -/

/-- Window 2's staging buffer after the body, from the two input blocks: its one store, of the payload of the two loads. -/
def out0_2 (x0 : Vec F S1024x512 .f32) (x1 : Vec F S1024x512 .f32) : Vec F S1024x512 .f32 :=
  View.canon [⟨r0, k0_pay1 (View.ld x0 r0) (View.ld x1 r0)⟩]

/-- The store covers the buffer. -/
theorem cover0_2 (p0 : Vec F S1024x512 .f32) (y : S1024x512.Idx) :
    ∃ pc ∈ ([⟨r0, p0⟩] : List (View.Piece (Elt F) S1024x512 .f32)), y ∈ pc.1.set :=
  View.cover_of_tiled [⟨r0, p0⟩] S1024x512.size (by rfl) y

/-! ## The body's triple -/

set_option maxHeartbeats 1000000 in
/-- The body on whole staging memrefs, the inputs' at contents x0, x1 and the output's at anything, runs to the
    continuation holding the inputs' as they were and the output's at out0_2 of the inputs': the body's load of the
    output buffer reads whatever is there and its value is not used. -/
theorem sound_kernel0 (c : Dev nD) (E : Set ℕ) (i : grid0.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole)
    (x0 : Vec F S1024x512 .f32) (x1 : Vec F S1024x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__feature_kernel i arg1 harg1 arg2 harg2 arg3 harg3) K := by
  simp only [cc0__feature_kernel_eq_skeleton]; unfold cc0__feature_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core c: the arrays as the pipeline finds them; after the body at point t each
    input's buffer at its block and the output's at out0_2 of the input blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Feat

end
-- ==== Proof.AdjFrame.lean ====
import proofs.«152750_j55465207660970_2_alg».proof.Proof.Gen.KernelIdeal.Launch
import proofs.«152750_j55465207660970_2_alg».proof.Proof.Gen.KernelIdeal.Skeleton
import proofs.«152750_j55465207660970_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Adj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel region (the row strips of the normalised matrix), entered at contents `V`

The body at a grid point reads a strip of 256 rows of the feature array (window 0), the whole feature array
(window 1, fetched once), the 256 row sums of squares (window 2) and all the column sums of squares (window 3);
at the first point it copies the whole feature array into a scratch buffer, which every point then reads;
it writes one strip of 256 rows of the result (window 4). -/

/-- The offsets of a whole-block access are zero on both axes. -/
theorem hz2 : (![0, 0] : Fin 2 → Nat) = fun _ => 0 := by
  funext a; match a with | ⟨0, _⟩ => rfl | ⟨1, _⟩ => rfl

/-- The body's branch condition from the grid coordinate: it holds at the first point only. -/
abbrev cond1 (i : grid1.Coords) : Prop :=
  (Scalar.cmpi .ne (Scalar.extui (Scalar.cmpi .eq (BitVec.ofNat 32 (i 0).val) 0#32)) 0#32) = 1#1

theorem hcond1 : ∀ t : Fin cfg1.N, cond1 (grid1.coords t) ↔ t.val = 0 :=
  (by decide +kernel : ∀ t : Fin grid1.N, cond1 (grid1.coords t) ↔ t.val = 0)

abbrev rA : Rect S256x512 := Rect.unit (s := S256x512) ![0, 0] S256x512.size inb_S256x512_S256x512_0_0
abbrev rF : Rect S8192x512 := Rect.unit (s := S8192x512) ![0, 0] S8192x512.size inb_S8192x512_S8192x512_0_0
abbrev rQ : Rect S256x1 := Rect.unit (s := S256x1) ![0, 0] S256x1.size inb_S256x1_S256x1_0_0
abbrev rC : Rect S1x8192 := Rect.unit (s := S1x8192) ![0, 0] S1x8192.size inb_S1x8192_S1x8192_0_0
abbrev rO : Rect S256x8192 := Rect.unit (s := S256x8192) ![0, 0] S256x8192.size inb_S256x8192_S256x8192_0_0

/-- One store through the whole block covers it. -/
theorem coverO (p0 : Vec F S256x8192 .f32) (y : S256x8192.Idx) :
    ∃ pc ∈ ([⟨rO, p0⟩] : List (View.Piece (Elt F) S256x8192 .f32)), y ∈ pc.1.set :=
  View.cover_of_tiled [⟨rO, p0⟩] S256x8192.size (by rfl) y
theorem coverF (p0 : Vec F S8192x512 .bf16) (y : S8192x512.Idx) :
    ∃ pc ∈ ([⟨rF, p0⟩] : List (View.Piece (Elt F) S8192x512 .bf16)), y ∈ pc.1.set :=
  View.cover_of_tiled [⟨rF, p0⟩] S8192x512.size (by rfl) y

set_option maxHeartbeats 2000000 in
/-- The body at the first point: it fills the scratch with the narrowed feature array and writes the strip
    computed from the loaded blocks and that scratch. -/
theorem sound_first (c : Dev nD) (E : Set ℕ) (i : grid1.Coords) (hc : cond1 i)
    (arg1 : Memref sig .tc .vmem S256x512 .f32) (harg1 : arg1.IsWhole) (arg2 : Memref sig .tc .vmem S8192x512 .f32) (harg2 : arg2.IsWhole)
    (arg3 : Memref sig .tc .vmem S256x1 .f32) (harg3 : arg3.IsWhole) (arg4 : Memref sig .tc .vmem S1x8192 .f32) (harg4 : arg4.IsWhole)
    (arg5 : Memref sig .tc .vmem S256x8192 .f32) (harg5 : arg5.IsWhole) (arg6 : Memref sig .tc .vmem S8192x512 .bf16) (harg6 : arg6.IsWhole)
    (x0 : Vec F S256x512 .f32) (x1 : Vec F S8192x512 .f32) (x2 : Vec F S256x1 .f32) (x3 : Vec F S1x8192 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k1_pay2 i x0 (k1_pay1 x1) x2 x3) ∗ owns (c : Thread nD τ) arg6 fullShare (k1_pay1 x1)) -∗ K ⟨⟩))
      ⊢ wp frame (wpE (defs₀ (F := F)) Variants.none c none) E (cc1__adj_kernel i arg1 harg1 arg2 harg2 arg3 harg3 arg4 harg4 arg5 harg5 arg6 harg6) K := by
  simp only [cc1__adj_kernel_eq_skeleton]; unfold cc1__adj_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.read_writes_eq_canon _ _ _ (coverO _), View.canon_unit_zero (S := _) hz2]
    simp only [View.readAt_eq_ld, View.ld_unit_zero (S := S256x512) hz2, View.ld_unit_zero (S := S8192x512) hz2, View.ld_unit_zero (S := S256x1) hz2, View.ld_unit_zero (S := S1x8192) hz2, View.readCov_unit_zero (S := S8192x512) _ hz2]
  · iexists _; isplitr
    swap; · iexact H5
    ipureintro
    sl_unfold_run_names
    rw [View.read_writes_eq_canon _ _ _ (coverF _), View.canon_unit_zero (S := _) hz2]
    simp only [View.readAt_eq_ld, View.ld_unit_zero (S := S256x512) hz2, View.ld_unit_zero (S := S8192x512) hz2, View.ld_unit_zero (S := S256x1) hz2, View.ld_unit_zero (S := S1x8192) hz2]

set_option maxHeartbeats 2000000 in
/-- The body at a later point: the scratch is read, not written. -/
theorem sound_later (c : Dev nD) (E : Set ℕ) (i : grid1.Coords) (hc : ¬cond1 i)
    (arg1 : Memref sig .tc .vmem S256x512 .f32) (harg1 : arg1.IsWhole) (arg2 : Memref sig .tc .vmem S8192x512 .f32) (harg2 : arg2.IsWhole)
    (arg3 : Memref sig .tc .vmem S256x1 .f32) (harg3 : arg3.IsWhole) (arg4 : Memref sig .tc .vmem S1x8192 .f32) (harg4 : arg4.IsWhole)
    (arg5 : Memref sig .tc .vmem S256x8192 .f32) (harg5 : arg5.IsWhole) (arg6 : Memref sig .tc .vmem S8192x512 .bf16) (harg6 : arg6.IsWhole)
    (x0 : Vec F S256x512 .f32) (x1 : Vec F S8192x512 .f32) (x2 : Vec F S256x1 .f32) (x3 : Vec F S1x8192 .f32) (s : Vec F S8192x512 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare s
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k1_pay2 i x0 s x2 x3) ∗ owns (c : Thread nD τ) arg6 fullShare s) -∗ K ⟨⟩))
      ⊢ wp frame (wpE (defs₀ (F := F)) Variants.none c none) E (cc1__adj_kernel i arg1 harg1 arg2 harg2 arg3 harg3 arg4 harg4 arg5 harg5 arg6 harg6) K := by
  simp only [cc1__adj_kernel_eq_skeleton]; unfold cc1__adj_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0; subst hf1; subst hf2; subst hf3; subst hf5
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.read_writes_eq_canon _ _ _ (coverO _), View.canon_unit_zero (S := _) hz2]
    simp only [View.readAt_eq_ld, View.ld_unit_zero (S := S256x512) hz2, View.ld_unit_zero (S := S8192x512) hz2, View.ld_unit_zero (S := S256x1) hz2, View.ld_unit_zero (S := S1x8192) hz2]
  · iexists f5; isplitr; · ipureintro; rfl
    iexact H5

/-! ## The windows' blocks, the proof data and the body obligation -/

section Data

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The first grid point. -/
def t0 : Fin cfg1.N := ⟨0, lt_of_lt_of_eq (by decide : 0 < 32) (show cfg1.N = 32 from N_1).symm⟩

/-- What the scratch buffer holds from the first point on: the whole feature array, narrowed. -/
def scr (c : Dev nD) : Vec F S8192x512 .bf16 := k1_pay1 (iblk1 V c 1 t0)

/-- The scratch buffer as a memref. -/
abbrev scM : Memref sig .tc .vmem S8192x512 .bf16 := Memref.whole cc1_scratch0

/-- The region's invariant before point `n`: before the first point every scoped buffer that is no staging buffer
    of this call at some contents; afterwards the same with the scratch at the narrowed feature array. -/
def PhiS (c : Dev nD) : ℕ → sProp 𝕄
  | 0 => Pipeline.ΦA spec1 c
  | _ + 1 => iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM fullShare (scr V c)) ∗ ∃ r, prngReg c r)

theorem PhiS_pos (c : Dev nD) (n : ℕ) (hn : n ≠ 0) :
    PhiS V c n = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM fullShare (scr V c)) ∗ ∃ r, prngReg c r) := by
  cases n with
  | zero => exact absurd rfl hn
  | succ n => rfl

/-- The class invariant with the scratch as a memref owned at some contents. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM fullShare d)) ∗ ∃ r, prngReg c r) := by
  unfold Pipeline.ΦA; rw [scopedRest1_eq]; simp only [scM, owns_whole]; try rfl

/-- The proof data: the arrays as the region finds them; after the body each input's buffer at its block and the
    output's at the strip computed from the blocks and the scratch; the feature array is held by windows 0 and 1
    at the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay2 (grid1.coords t) (iblk1 V c 0 t) (scr V c) (iblk1 V c 2 t) (iblk1 V c 3 t)
  Φ t := PhiS V c t.val
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = k1_pay2 (grid1.coords t) (iblk1 V c 0 t) (scr V c) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

theorem Phi_castSucc (c : Dev nD) (t : Fin cfg1.N) : (dat1 V c).Φ t.castSucc = PhiS V c t.val := by
  dsimp only [dat1]; simp only [Fin.coe_castSucc]
theorem Phi_succ (c : Dev nD) (t : Fin cfg1.N) : (dat1 V c).Φ t.succ = PhiS V c (t.val + 1) := rfl

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 2000000 in
/-- The body at any point: at the first the scratch is at anything and is filled; afterwards it holds the narrowed
    feature array and is only read. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    after1_0, after1_1, after1_2, after1_3, after1_4, Phi_castSucc, Phi_succ, PhiS_pos V c (t.val + 1) (Nat.succ_ne_zero _)]
  by_cases hz : t.val = 0
  · obtain rfl : t = t0 := Fin.ext hz
    rw [show PhiS V c (t0 : Fin cfg1.N).val = Pipeline.ΦA spec1 c from rfl, PhiA1_eq]
    iintro ⟨⟨⟨HA1, HA2, HA3, HA4, HA5, HA6, HS⟩, Hg⟩, Ho, ⟨%d0, H0⟩, ⟨%d1, H1⟩, ⟨%d2, H2⟩, ⟨%d3, H3⟩, ⟨%d4, H4⟩⟩
    iapply (sound_first c Set.univ (grid1.coords t0) ((hcond1 t0).mpr rfl) _ _ _ _ _ _ _ _ _ _ _ _
      (iblk1 V c 0 t0) (iblk1 V c 1 t0) (iblk1 V c 2 t0) (iblk1 V c 3 t0) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HA1 HA2 HA3 HA4 HA5 HA6 HS Hg]
    · isplitr [Hg]
      · isplitl [HA1]; · iexact HA1
        isplitl [HA2]; · iexact HA2
        isplitl [HA3]; · iexact HA3
        isplitl [HA4]; · iexact HA4
        isplitl [HA5]; · iexact HA5
        isplitl [HA6]; · iexact HA6
        iexact HS
      · iexact Hg
    isplitl [Ho]; · iexact Ho
    isplitl [H0]; · iexact H0
    isplitl [H1]; · iexact H1
    isplitl [H2]; · iexact H2
    isplitl [H3]; · iexact H3
    iexact H4
  · rw [PhiS_pos V c t.val hz]
    iintro ⟨⟨⟨HA1, HA2, HA3, HA4, HA5, HA6, HS⟩, Hg⟩, Ho, ⟨%d0, H0⟩, ⟨%d1, H1⟩, ⟨%d2, H2⟩, ⟨%d3, H3⟩, ⟨%d4, H4⟩⟩
    iapply (sound_later c Set.univ (grid1.coords t) (fun h => hz ((hcond1 t).mp h)) _ _ _ _ _ _ _ _ _ _ _ _
      (iblk1 V c 0 t) (iblk1 V c 1 t) (iblk1 V c 2 t) (iblk1 V c 3 t) (scr V c) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HA1 HA2 HA3 HA4 HA5 HA6 HS Hg]
    · isplitr [Hg]
      · isplitl [HA1]; · iexact HA1
        isplitl [HA2]; · iexact HA2
        isplitl [HA3]; · iexact HA3
        isplitl [HA4]; · iexact HA4
        isplitl [HA5]; · iexact HA5
        isplitl [HA6]; · iexact HA6
        iexact HS
      · iexact Hg
    isplitl [Ho]; · iexact Ho
    isplitl [H0]; · iexact H0
    isplitl [H1]; · iexact H1
    isplitl [H2]; · iexact H2
    isplitl [H3]; · iexact H3
    iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

end Data

end Cert.KernelIdeal.Adj

end
-- ==== Proof.RunDefs.lean ====
import proofs.«152750_j55465207660970_2_alg».proof.Proof.Gen.KernelIdeal.Launch
import proofs.«152750_j55465207660970_2_alg».proof.Proof.Gen.KernelIdeal.Skeleton
import proofs.«152750_j55465207660970_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«152750_j55465207660970_2_alg».proof.Proof.FeatFrame
import proofs.«152750_j55465207660970_2_alg».proof.Proof.AdjFrame
import proofs.«152750_j55465207660970_2_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The buffer contents between the program's items, with both kernels' results named -/

variable (m : (ℓ : Loc nD τ sig) → Buf (Elt F) ℓ)

/-- The launch contents, read at the TensorCore's references: what the first kernel region is entered at. -/
abbrev Va : (c : Dev nD) → (b : Ref sig .tc) → Buf (Elt F) ((c : Thread nD τ).loc b) := fun c b => Gen.V0 m c b

/-- What the first kernel region leaves in its result array. -/
def out0 (c : Dev nD) : Buf (Elt F) ((c : Thread nD τ).loc main_v0) := (Feat.dat0 (Va m) c).arrAt 2 cfg0.N

/-- The contents after the first region, -/
abbrev W1 (c : Dev nD) : Valuation τ sig (Elt F) := Function.update (Gen.V0 m c) main_v0 (out0 m c)
/-- after the host operations between the regions, -/
abbrev W2 (c : Dev nD) : Valuation τ sig (Elt F) := StableHlo.after hostOps1 (W1 m c)
/-- the same read at the TensorCore's references: what the second kernel region is entered at. -/
abbrev Vb : (c : Dev nD) → (b : Ref sig .tc) → Buf (Elt F) ((c : Thread nD τ).loc b) := fun c b => W2 m c b

/-- What the second kernel region leaves in its result array. -/
def out5 (c : Dev nD) : Buf (Elt F) ((c : Thread nD τ).loc main_v5) := (Adj.dat1 (Vb m) c).arrAt 4 cfg1.N

/-- The contents after the second region: the end of the program. -/
abbrev W3 (c : Dev nD) : Valuation τ sig (Elt F) := Function.update (W2 m c) main_v5 (out5 m c)

end Cert.KernelIdeal.Run

end
-- ==== Proof.Run.lean ====
import proofs.«152750_j55465207660970_2_alg».proof.Proof.Gen.KernelIdeal.Launch
import proofs.«152750_j55465207660970_2_alg».proof.Proof.Gen.KernelIdeal.Skeleton
import proofs.«152750_j55465207660970_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«152750_j55465207660970_2_alg».proof.Proof.RunDefs

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

/-! # The program's run with both kernels' results named

The program is: the first kernel region, five host operations, the second kernel region. Between two items the
TensorCore holds every unscoped buffer at a named valuation (the launch contents; then the first region's result
array at what its write-backs leave; then the host operations applied; then the second region's result array at
what its write-backs leave), its generator register at some state, and owes nothing. The second region is handed
the feature array through two of its windows: the array's full share is dealt to them in halves at the region's
entry and joined again at its exit. -/

/-! ## The second region's arrays and shares -/

section Shares
variable (V : (c : Dev nD) → (b : Ref sig .tc) → Buf (Elt F) ((c : Thread nD τ).loc b))

theorem share1_0 (c : Dev nD) : (Adj.dat1 V c).share 0 = fullShare.left := rfl
theorem share1_1 (c : Dev nD) : (Adj.dat1 V c).share 1 = fullShare.right := rfl
theorem share1_2 (c : Dev nD) : (Adj.dat1 V c).share 2 = fullShare := rfl
theorem share1_3 (c : Dev nD) : (Adj.dat1 V c).share 3 = fullShare := rfl
theorem share1_4 (c : Dev nD) : (Adj.dat1 V c).share 4 = fullShare := rfl

theorem arrays1_pt (c : Dev nD) (w : Fin cfg1.W) (q : PosShare TreeShare) (g : Buf (Elt F) ((cfg1.win w).arr.view.loc (c : Thread nD τ))) :
    ((cfg1.win w).arr.view.loc (c : Thread nD τ) ↦[(cfg1.win w).arr.view.set]{q} g : sProp 𝕄)
      = (((c : Thread nD τ).loc (Pipeline.arrRef spec1 w)) ↦{q} g) := by
  rw [(arr_whole1 w).set_eq_univ]

/-- The region's arrays, window by window: the feature array twice, at the two halves of the full share. -/
theorem arrays1_eq (c : Dev nD) (G : (w : Fin cfg1.W) → Buf (Elt F) ((cfg1.win w).arr.view.loc (c : Thread nD τ))) :
    ((Adj.dat1 V c).arrays G : sProp 𝕄)
      = iprop((((c : Thread nD τ).loc main_v0) ↦{fullShare.left} G 0) ∗ (((c : Thread nD τ).loc main_v0) ↦{fullShare.right} G 1)
          ∗ (((c : Thread nD τ).loc main_v3) ↦{fullShare} G 2) ∗ (((c : Thread nD τ).loc main_v4) ↦{fullShare} G 3)
          ∗ (((c : Thread nD τ).loc main_v5) ↦{fullShare} G 4)) := by
  unfold Dat.arrays
  rw [bigSep_congr fun w _ => arrays1_pt c w _ _, bigSep_W1, share1_0, share1_1, share1_2, share1_3, share1_4]

/-- The distinct buffers behind the region's arrays. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v0) ↦{fullShare} W main_v0) ∗ (((c : Thread nD τ).loc main_v3) ↦{fullShare} W main_v3)
          ∗ (((c : Thread nD τ).loc main_v4) ↦{fullShare} W main_v4) ∗ (((c : Thread nD τ).loc main_v5) ↦{fullShare} W main_v5)) := by
  unfold Pipeline.arrBufs
  exact bigSep_eq_bigSepL_of_eq [main_v0, main_v3, main_v4, main_v5] (by decide) (by decide) _

/-- A core's unscoped buffers at a valuation: the four buffers behind the region's arrays and the rest. -/
theorem held_split1 (c : Dev nD) (W : Valuation τ sig (Elt F)) :
    (StableHlo.held (c : Thread nD τ) (Pipeline.ucRefs τ sig) W : sProp 𝕄)
      = iprop(iprop((((c : Thread nD τ).loc main_v0) ↦{fullShare} W main_v0) ∗ (((c : Thread nD τ).loc main_v3) ↦{fullShare} W main_v3)
          ∗ (((c : Thread nD τ).loc main_v4) ↦{fullShare} W main_v4) ∗ (((c : Thread nD τ).loc main_v5) ↦{fullShare} W main_v5))
          ∗ Pipeline.unscopedRest (Ix := Unit) (Name := ℕ) (U := UR sig nD τ) (Lvl := ℕ) spec1 c (fun b => W b)) := by
  rw [← Pipeline.unscopedBufs_held (Ix := Unit) (Name := ℕ) (U := UR sig nD τ) (Lvl := ℕ) c W,
    Pipeline.unscopedBufs_split₀ (Ix := Unit) (Name := ℕ) (U := UR sig nD τ) (Lvl := ℕ) cfgs (1 : Fin 2) winFacts₀1.arr_unscoped c (fun b => W b)]
  show iprop(Pipeline.arrBufs (Ix := Unit) (Name := ℕ) (U := UR sig nD τ) (Lvl := ℕ) spec1 c (fun b => W b) ∗ Pipeline.unscopedRest (Ix := Unit) (Name := ℕ) (U := UR sig nD τ) (Lvl := ℕ) spec1 c (fun b => W b)) = _
  rw [arrBufs1_eq]

/-- The feature array's full share is the two halves. -/
theorem v0_halves (c : Dev nD) (g : Buf (Elt F) ((c : Thread nD τ).loc main_v0)) :
    ((((c : Thread nD τ).loc main_v0) ↦{fullShare} g : sProp 𝕄) ⊢ iprop((((c : Thread nD τ).loc main_v0) ↦{fullShare.left} g) ∗ (((c : Thread nD τ).loc main_v0) ↦{fullShare.right} g)))
    ∧ (iprop((((c : Thread nD τ).loc main_v0) ↦{fullShare.left} g) ∗ (((c : Thread nD τ).loc main_v0) ↦{fullShare.right} g)) ⊢ ((((c : Thread nD τ).loc main_v0) ↦{fullShare} g : sProp 𝕄))) :=
  ⟨(pointsTo_share (PosShare.mem_left_op_right fullShare)).1, (pointsTo_share (PosShare.mem_left_op_right fullShare)).2⟩

end Shares

variable (m : (ℓ : Loc nD τ sig) → Buf (Elt F) ℓ)

/-! ## What each region's arrays hold at its exit, against the next valuation -/

theorem hF0 (c : Dev nD) : ∀ w : Fin cfg0.W, (Feat.dat0 (Va m) c).arrAt w cfg0.N = W1 m c (Pipeline.arrRef spec0 w)
  | ⟨0, _⟩ => ((Feat.dat0 (Va m) c).arrAt_in 0 rfl _).trans ((Feat.A_eq0 (Va m) c 0).trans
      (Function.update_of_ne (StableHlo.devRef_ne_of_ne (by decide) : (Proc.devRef .tc main_arg0 : DevRef τ sig) ≠ Proc.devRef .tc main_v0) _ _).symm)
  | ⟨1, _⟩ => ((Feat.dat0 (Va m) c).arrAt_in 1 rfl _).trans ((Feat.A_eq0 (Va m) c 1).trans
      (Function.update_of_ne (StableHlo.devRef_ne_of_ne (by decide) : (Proc.devRef .tc main_arg1 : DevRef τ sig) ≠ Proc.devRef .tc main_v0) _ _).symm)
  | ⟨2, _⟩ => (Function.update_self (Proc.devRef .tc main_v0 : DevRef τ sig) (out0 m c) (Gen.V0 m c)).symm

theorem hrest0 (c : Dev nD) : ∀ b, b ∉ Finset.univ.image (Pipeline.arrRef spec0) → (fun b : Ref sig .tc => W1 m c b) b = Va m c b :=
  fun b hb => Function.update_of_ne (StableHlo.devRef_ne_of_ne (fun e : b = main_v0 => hb (by subst e; exact Finset.mem_image.mpr ⟨2, Finset.mem_univ _, rfl⟩))) _ _

/-! ## The proof data family and the thread state -/

def pdats : (p : Fin 2) → (c : Dev nD) → Dat τ (Elt F) Unit ℕ (UR sig nD τ) ℕ (Pipeline.pin (pcfgs (F := F)) adm p) c
  | ⟨0, _⟩ => fun c => Feat.dat0 (Va m) c
  | ⟨1, _⟩ => fun c => Adj.dat1 (Vb m) c
abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
/-- The last thread state without the debts. -/
abbrev Tₙ (c : Dev nD) : sProp 𝕄 := iprop(StableHlo.held (c : Thread nD τ) (Pipeline.ucRefs τ sig) (W3 m c) ∗ ∃ r, prngReg c r)

/-- The host operations between the regions as a segment. -/
abbrev hseg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- The first region: entered from the launch contents, left with its result array at what its write-backs leave. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Feat.body_obligation0 (Va m) c).loose
  hwaits := Pipeline.hwaits_of_owed_zero _ _ _ _ L lv 0 fun _ _ => rfl
  pre c := iprop(StableHlo.held (c : Thread nD τ) (Pipeline.ucRefs τ sig) (Gen.V0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Va m c) (fun b => W1 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region -/

section Second
variable (V : (c : Dev nD) → (b : Ref sig .tc) → Buf (Elt F) ((c : Thread nD τ).loc b))

/-- After the last point the invariant gives the scoped rest back: the scratch's contents are forgotten. -/
theorem Phi_out1 (c : Dev nD) : Adj.PhiS V c 32 ⊢ (Pipeline.ΦA spec1 c : sProp 𝕄) := by
  rw [Adj.PhiS_pos V c 32 (by decide), Adj.PhiA1_eq]
  iintro ⟨⟨HA1, HA2, HA3, HA4, HA5, HA6, HS⟩, Hg⟩
  isplitr [Hg]
  · isplitl [HA1]; · iexact HA1
    isplitl [HA2]; · iexact HA2
    isplitl [HA3]; · iexact HA3
    isplitl [HA4]; · iexact HA4
    isplitl [HA5]; · iexact HA5
    isplitl [HA6]; · iexact HA6
    iexists _; iexact HS
  · iexact Hg

theorem e1_0 (c : Dev nD) : (Adj.dat1 V c).arrAt 0 cfg1.N = V c main_v0 := ((Adj.dat1 V c).arrAt_in 0 rfl _).trans (Adj.A_eq1 V c 0)
theorem e1_1 (c : Dev nD) : (Adj.dat1 V c).arrAt 1 cfg1.N = V c main_v0 := ((Adj.dat1 V c).arrAt_in 1 rfl _).trans (Adj.A_eq1 V c 1)
theorem e1_2 (c : Dev nD) : (Adj.dat1 V c).arrAt 2 cfg1.N = V c main_v3 := ((Adj.dat1 V c).arrAt_in 2 rfl _).trans (Adj.A_eq1 V c 2)
theorem e1_3 (c : Dev nD) : (Adj.dat1 V c).arrAt 3 cfg1.N = V c main_v4 := ((Adj.dat1 V c).arrAt_in 3 rfl _).trans (Adj.A_eq1 V c 3)

end Second

theorem W3_of (c : Dev nD) (r : Ref sig .tc) (h : r ≠ main_v5) : W3 m c r = W2 m c r :=
  Function.update_of_ne (StableHlo.devRef_ne_of_ne h) _ _
theorem W3_v5 (c : Dev nD) : W3 m c main_v5 = out5 m c := Function.update_self _ _ _
theorem W2_of (c : Dev nD) (r : Ref sig .tc) (h : r ∉ hostOps1_W) : W2 m c r = W1 m c r :=
  StableHlo.after_of_writes_sub hostOps1 _ hostOps1_writes h
theorem W1_of (c : Dev nD) (r : Ref sig .tc) (h : r ≠ main_v0) : W1 m c r = Gen.V0 m c r :=
  Function.update_of_ne (StableHlo.devRef_ne_of_ne h) _ _
theorem W1_v0 (c : Dev nD) : W1 m c main_v0 = out0 m c := Function.update_self _ _ _

theorem rest1_W3 (c : Dev nD) :
    (Pipeline.unscopedRest (Ix := Unit) (Name := ℕ) (U := UR sig nD τ) (Lvl := ℕ) spec1 c (fun b => W3 m c b) : sProp 𝕄)
      = Pipeline.unscopedRest spec1 c (Vb m c) := by
  unfold Pipeline.unscopedRest
  exact bigSep_congr fun b hb => by
    rw [show (fun b : Ref sig .tc => W3 m c b) b = Vb m c b from
      W3_of m c b (fun e : b = main_v5 => (Finset.mem_sdiff.mp hb).2 (by subst e; exact Finset.mem_image.mpr ⟨4, Finset.mem_univ _, rfl⟩))]

set_option backward.isDefEq.respectTransparency.types false in
/-- The second region: entered from the contents the host operations leave, left with its result array at what its
    write-backs leave. The feature array's full share is halved between windows 0 and 1 at the entry and joined at
    the exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Adj.body_obligation1 (Vb m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vb m c)
  hentry c := by
    rw [Pipeline.ownSems0_none]
    have hsp := held_split1 (F := F) c (W2 m c)
    have hin := arrays1_eq (Vb m) c ((Adj.dat1 (Vb m) c).arrAt · 0)
    iintro ⟨⟨Hub, Hp, HO⟩, -, -⟩
    ihave H := (Entails.of_eq hsp) $$ Hub
    icases H with ⟨⟨H0, H3, H4, H5⟩, Hrest⟩
    ihave H0' := (v0_halves (F := F) c _).1 $$ H0
    icases H0' with ⟨H0l, H0r⟩
    imodintro
    isplitl [H0l H0r H3 H4 H5]
    · iapply (Entails.of_eq hin.symm)
      isplitl [H0l]; · iexact H0l
      isplitl [H0r]; · iexact H0r
      isplitl [H3]; · iexact H3
      isplitl [H4]; · iexact H4
      iexact H5
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ (Pipeline.ΦA spec1 c : sProp 𝕄) from Phi_out1 (Vb m) c).trans ?_
    unfold Pipeline.ΦA
    iintro ⟨Hr, Hp⟩
    isplitl [Hp]; · iexact Hp
    isplitr; · iempintro
    iexact Hr
  hexit c := by
    have hel := arrays1_eq (Vb m) c ((Adj.dat1 (Vb m) c).arrAt · cfg1.N)
    simp only [] at hel
    rw [e1_0, e1_1, e1_2, e1_3] at hel
    have hel' : ((pdats m 1 c).arrays (fun x => (pdats m 1 c).arrAt x (Pipeline.pin (pcfgs (F := F)) adm 1).N) : sProp 𝕄) = _ := hel
    have hsp := held_split1 (F := F) c (W3 m c)
    rw [W3_of m c main_v0 (by decide), W3_of m c main_v3 (by decide), W3_of m c main_v4 (by decide), W3_v5, rest1_W3] at hsp
    refine BIBase.Entails.trans (sep_mono (Entails.of_eq hel') .rfl) ?_
    iintro ⟨⟨H0l, H0r, H3, H4, H5⟩, HO, HY, Hrest⟩
    ihave H0 := (v0_halves (F := F) c _).2 $$ [H0l H0r]
    · isplitl [H0l]; · iexact H0l
      iexact H0r
    imodintro
    isplitr [HO]
    · isplitr [HY]
      · iapply (Entails.of_eq hsp.symm)
        isplitr [Hrest]
        · isplitl [H0]; · iexact H0
          isplitl [H3]; · iexact H3
          isplitl [H4]; · iexact H4
          iexact H5
        · iexact Hrest
      · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m), .host (hseg1 m), .region (reg1 m) ]

theorem main_run (c : Dev nD) : main (F := F) c = Pipeline.Seg.run (segs m) := (main_chain c).trans (by chain_rfl)

theorem W3_main_v0 (c : Dev nD) : W3 m c main_v0 = out0 m c :=
  (W3_of m c main_v0 (by decide)).trans ((W2_of m c main_v0 (by decide)).trans (W1_v0 m c))
theorem W3_main_arg0 (c : Dev nD) : W3 m c main_arg0 = m ((c : Thread nD τ).loc main_arg0) :=
  (W3_of m c main_arg0 (by decide)).trans ((W2_of m c main_arg0 (by decide)).trans ((W1_of m c main_arg0 (by decide)).trans rfl))
theorem W3_main_arg1 (c : Dev nD) : W3 m c main_arg1 = m ((c : Thread nD τ).loc main_arg1) :=
  (W3_of m c main_arg1 (by decide)).trans ((W2_of m c main_arg1 (by decide)).trans ((W1_of m c main_arg1 (by decide)).trans rfl))

set_option backward.isDefEq.respectTransparency.types false in
/-- THE RUN: from any memory with zero counters every weakly fair execution of the program terminates, nothing
    faulting, with the two result arrays at what the two regions' write-backs leave and the arguments as launched. -/
theorem run_named (ρ : Dev nD → PrngReg) : θ_run defs (onTc (τ := τ) (main (F := F))) ⟨m, fun _ => 0, ρ⟩ (fun r => ∀ c : Dev nD,
      r.2.mem ((c.tc : Thread nD τ).loc main_v5) = out5 m c
      ∧ r.2.mem ((c.tc : Thread nD τ).loc main_v0) = out0 m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v5 (by decide))).trans (W3_v5 m c),
       (h c _ (mem_uc main_v0 (by decide))).trans (W3_main_v0 m c),
       (h c _ (mem_uc main_arg0 (by decide))).trans (W3_main_arg0 m c),
       (h c _ (mem_uc main_arg1 (by decide))).trans (W3_main_arg1 m c)⟩)

end Cert.KernelIdeal.Run

end
-- ==== Proof.Spec.lean ====
/-
  The two arrays the programs compute, as whole-array functions of the argument arrays on the extended reals.

  feat q g : the squared differences (q - g)^2, each row divided by its sum (a row whose sum is the zero word
  is multiplied by the zero word instead of the reciprocal).
  adj f    : with sq i the sum of the squares of row i of f and dot i j the scalar product of rows i and j,
  the matrix sq i + sq j - 2 * dot i j with the one word added on the diagonal, each row again divided by its sum
  under the same convention.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The shapes: rows by features, and rows by rows. -/
abbrev SND : Shape := ⟨2, ![8192, 512]⟩
abbrev SNN : Shape := ⟨2, ![8192, 8192]⟩

/-- The three float words the programs spell: 0.0, 1.0, 2.0. -/
abbrev zero : EReal := Ideal.ofBits .f32 0x00000000#32
abbrev one : EReal := Ideal.ofBits .f32 0x3F800000#32
abbrev two : EReal := Ideal.ofBits .f32 0x40000000#32

/-- The guarded reciprocal of a row sum: the zero word where the sum compares equal to the zero word, else one over it. -/
def inv (s : EReal) : EReal := Scalar.select (Ideal.cmp .oeq s zero) zero (Ideal.div one s)

/-- A squared difference. -/
def sqd (q g : SND.Idx → EReal) (i : Fin 8192) (k : Fin 512) : EReal :=
  (q (ix2 i k) - g (ix2 i k)) * (q (ix2 i k) - g (ix2 i k))

/-- Entry (i, k) of the normalised squared differences. -/
def featAt (q g : SND.Idx → EReal) (i : Fin 8192) (k : Fin 512) : EReal :=
  sqd q g i k * inv (∑ k' : Fin 512, sqd q g i k')

/-- The normalised squared differences as an array. -/
def feat (q g : SND.Idx → EReal) : SND.Idx → EReal := fun j => featAt q g (j 0) (j 1)

/-- The sum of the squares of row i. -/
def sq (f : SND.Idx → EReal) (i : Fin 8192) : EReal := ∑ k : Fin 512, f (ix2 i k) * f (ix2 i k)

/-- The scalar product of rows i and j. -/
def dot (f : SND.Idx → EReal) (i j : Fin 8192) : EReal := ∑ k : Fin 512, f (ix2 i k) * f (ix2 j k)

/-- The identity matrix in the programs' words. -/
def eye (i j : Fin 8192) : EReal := if i = j then one else zero

/-- Entry (i, j) before the row normalisation. -/
def blk (f : SND.Idx → EReal) (i j : Fin 8192) : EReal := (sq f i + sq f j - two * dot f i j) + eye i j

/-- Entry (i, j) of the normalised matrix. -/
def adjAt (f : SND.Idx → EReal) (i j : Fin 8192) : EReal := blk f i j * inv (∑ l : Fin 8192, blk f i l)

/-- The normalised matrix as an array. -/
def adj (f : SND.Idx → EReal) : SNN.Idx → EReal := fun j => adjAt f (j 0) (j 1)

/-- The scalar product is symmetric: multiplication of extended reals commutes. -/
theorem dot_comm (f : SND.Idx → EReal) (i j : Fin 8192) : dot f i j = dot f j i :=
  Finset.sum_congr rfl fun k _ => mul_comm _ _

end Cert.Spec

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.FeatValue.lean ====
/-
  The value of the first pipeline on the extended reals: the payload of its body at an index (a squared difference
  times the guarded reciprocal of its row's sum of squared differences), each write-back as a block of the whole-array
  function, and the output array after the last point.
-/
import proofs.«152750_j55465207660970_2_alg».proof.Proof.FeatFrame
import proofs.«152750_j55465207660970_2_alg».proof.Proof.Spec
import proofs.«152750_j55465207660970_2_alg».proof.Proof.LibRowReductions
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.FeatValue

open Cert.KernelIdeal Cert.KernelIdeal.Gen Cert.KernelIdeal.Feat
open Idealize.ShloMosaic Idealize.ShloMosaic.TcCoe Idealize.ShloMosaic.ValueIdx Idealize.SL.Sem
open Idealize.ShloMosaic.Pipeline (Dat)
open Cert.Lib.RowReductions

/-! ## The payload at an index -/

/-- The body's payload at (p, k): the squared difference there times the guarded reciprocal of row p's sum of
    squared differences. -/
theorem pay_apply (x0 x1 : Vec Ideal S1024x512 .f32) (p : Fin 1024) (k : Fin 512) :
    k0_pay1 x0 x1 (ix2 p k)
      = (x0 (ix2 p k) - x1 (ix2 p k)) * (x0 (ix2 p k) - x1 (ix2 p k))
          * Cert.Spec.inv (∑ k' : Fin 512, (x0 (ix2 p k') - x1 (ix2 p k')) * (x0 (ix2 p k') - x1 (ix2 p k'))) := by
  have hs : shapeCast S1024x1 (multiReduction (F := Ideal) .add [1] S1024 (mulf (subf x0 x1) (subf x0 x1)) 0x00000000#32
        reduces_S1024x512_S1024 (.inl rfl) rfl) shapeCasts_S1024_S1024x1 (ix2 p 0)
      = ∑ k' : Fin 512, (x0 (ix2 p k') - x1 (ix2 p k')) * (x0 (ix2 p k') - x1 (ix2 p k')) :=
    (shapeCast_col_apply _ _ p).trans (rowsum_apply _ _ _ _ _ p)
  unfold k0_pay1
  refine (mulf_apply _ _ _).trans ?_
  refine congrArg (fun z => (x0 (ix2 p k) - x1 (ix2 p k)) * (x0 (ix2 p k) - x1 (ix2 p k)) * z) ?_
  refine (broadcast_col_apply _ _ p k).trans ?_
  rw [← hs]
  rfl

/-! ## From blocks to the array -/

theorem hz : (![0, 0] : Fin 2 → Nat) = fun _ => 0 := funext fun a => by fin_cases a <;> rfl

/-- The printed index maps, decided over the grid: at point t each of the three windows is on block (t, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- Row p of point t's block is row 1024 t + p of the array. -/
abbrev rowOf (t : Fin cfg0.N) (p : Fin 1024) : Fin 8192 :=
  ⟨t.val * 1024 + p.val, by have ht : t.val < 8 := lt_of_lt_of_eq t.isLt N_0; have := p.isLt; omega⟩

/-- Input window 0's block at point t reads the first argument at the block's rows. -/
theorem iblk0_0_apply (c : Dev nD) (t : Fin cfg0.N) (p : Fin 1024) (k : Fin 512) :
    (iblk0 V c 0 t : Vec Ideal S1024x512 .f32) (ix2 p k) = (V c main_arg0 : S8192x512.Idx → EReal) (ix2 (rowOf t p) k) := by
  obtain ⟨e0, e1, -, -, -, -⟩ := idx_facts t
  unfold iblk0
  rw [View.read_apply]
  show V c main_arg0 _ = V c main_arg0 _
  congr 1
  funext a
  apply Fin.ext
  match a with
  | ⟨0, _⟩ => show win0_0.index t (0 : Fin 2) * 1024 + 1 * p.val = t.val * 1024 + p.val; rw [e0]; omega
  | ⟨1, _⟩ => show win0_0.index t (1 : Fin 2) * 512 + 1 * k.val = k.val; rw [e1]; omega

/-- Input window 1's block at point t reads the second argument at the block's rows. -/
theorem iblk0_1_apply (c : Dev nD) (t : Fin cfg0.N) (p : Fin 1024) (k : Fin 512) :
    (iblk0 V c 1 t : Vec Ideal S1024x512 .f32) (ix2 p k) = (V c main_arg1 : S8192x512.Idx → EReal) (ix2 (rowOf t p) k) := by
  obtain ⟨-, -, e0, e1, -, -⟩ := idx_facts t
  unfold iblk0
  rw [View.read_apply]
  show V c main_arg1 _ = V c main_arg1 _
  congr 1
  funext a
  apply Fin.ext
  match a with
  | ⟨0, _⟩ => show win0_1.index t (0 : Fin 2) * 1024 + 1 * p.val = t.val * 1024 + p.val; rw [e0]; omega
  | ⟨1, _⟩ => show win0_1.index t (1 : Fin 2) * 512 + 1 * k.val = k.val; rw [e1]; omega

/-- The output window's block at point t sits at the same rows. -/
theorem blk2_emb (t : Fin cfg0.N) (p : Fin 1024) (k : Fin 512) :
    (((cfg0.win 2).blk t).view.emb (ix2 p k) : S8192x512.Idx) = ix2 (rowOf t p) k := by
  obtain ⟨-, -, -, -, e0, e1⟩ := idx_facts t
  funext a
  apply Fin.ext
  match a with
  | ⟨0, _⟩ => show win0_2.index t (0 : Fin 2) * 1024 + 1 * p.val = t.val * 1024 + p.val; rw [e0]; omega
  | ⟨1, _⟩ => show win0_2.index t (1 : Fin 2) * 512 + 1 * k.val = k.val; rw [e1]; omega

/-- What point t writes back is block t of the normalised squared differences of the two arguments as the pipeline
    finds them: a block holds whole rows, so a row's sum is taken inside one block. -/
theorem flushed_eq (c : Dev nD) (t : Fin cfg0.N) :
    (dat0 (F := Ideal) V c).flushed 2 t
      = ((cfg0.win 2).blk t).view.read (Elt Ideal) (Cert.Spec.feat (V c main_arg0) (V c main_arg1)) := by
  show (cfg0.win 2).cut (grid0.coords t) ((dat0 V c).after 2 t) = _
  rw [after0_2]
  unfold out0_2
  rw [View.canon_unit_zero hz]
  simp only [View.ld_unit_zero (S := S1024x512) hz]
  funext j
  obtain ⟨p, k, rfl⟩ : ∃ (p : Fin 1024) (k : Fin 512), j = ix2 p k := ⟨j 0, j 1, eq_ix2 j⟩
  refine (pay_apply _ _ p k).trans ?_
  rw [View.read_apply, blk2_emb]
  simp only [iblk0_0_apply, iblk0_1_apply]
  rfl

/-- An index of the array is in point t's block iff each coordinate is in the block's range on its axis. -/
theorem mem_blk (t : Fin cfg0.N) (i : S8192x512.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v0).slice (win0_2.rect t)).set ↔ _
  rw [View.set_slice_whole, Rect.mem_set_unit]
  exact Iff.rfl

/-- Every index of the array is in the block of the point its row divided by 1024 names. -/
theorem cover (i : S8192x512.Idx) :
    ∃ t : Fin cfg0.N, (cfg0.win 2).flush t = true ∧ i ∈ ((cfg0.win 2).blk t).view.set := by
  have hi0 : (i 0).val < 8192 := (i 0).isLt
  have hi1 : (i 1).val < 512 := (i 1).isLt
  have hN : cfg0.N = 8 := N_0
  let t : Fin cfg0.N := ⟨(i 0).val / 1024, by rw [hN]; omega⟩
  obtain ⟨-, -, -, -, e0, e1⟩ := idx_facts t
  have ht : t.val = (i 0).val / 1024 := rfl
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; rw [e0, ht]; omega
  | ⟨1, _⟩ => show win0_2.index t (1 : Fin 2) * 512 ≤ (i 1).val ∧ (i 1).val < win0_2.index t (1 : Fin 2) * 512 + 512; rw [e1]; omega

/-- The output array after the last point: the normalised squared differences of the two arguments as the pipeline
    finds them. -/
theorem feat_final (c : Dev nD) :
    (Cert.KernelIdeal.Feat.dat0 (F := Ideal) V c).arrAt 2 cfg0.N = Cert.Spec.feat (V c main_arg0) (V c main_arg1) :=
  (dat0 (F := Ideal) V c).arrAt_eq_of_cover 2 (Cert.Spec.feat (V c main_arg0) (V c main_arg1))
    (fun t _ => flushed_eq V c t) cover

end Cert.KernelIdeal.FeatValue

end
-- ==== Proof.LibHostRows.lean ====
/-
  The reference's sum along each row of an a×b array, on the extended reals, read at an index: the initial value plus
  the sum over the row's entries. Nothing here mentions a program.
-/
import Idealize.ShloMosaic.PureOps.Ideal
import Idealize.ShloMosaic.PureOps.Ideal.Laws
import Idealize.ShloMosaic.Lib.ValueIdx
import proofs.«152750_j55465207660970_2_alg».proof.Proof.LibRowReductions

open scoped BigOperators

namespace Cert.Lib.HostRows

open Idealize.ShloMosaic Idealize.ShloMosaic.ValueIdx

variable {a b : Nat}

/-- The reference's one-operand reduce with an add body along each row of an a×b array is at p the initial value's
    element plus the sum over k of the array at (p, k). -/
theorem host_rowsum_apply {u : Shape} (x : FVec Ideal ⟨2, ![a, b]⟩ .f32) (init : u.Idx → Ideal .f32)
    (h' : (⟨2, ![a, b]⟩ : Shape).ReducesTo [1] ⟨1, ![a]⟩) (hu : 0 < u.numel) (p : Fin a) :
    Host.reduceAdd x init h' hu (ix1 p) = init (Shape.Idx.first hu) + ∑ k : Fin b, x (ix2 p k) := by
  have h : (⟨2, ![a, b]⟩ : Shape).Reduces [1] ⟨1, ![a]⟩ := ⟨h'.1, Nat.one_pos, h'.2⟩
  simp only [Host.reduceAdd, Ideal.hostReduceAdd_def]
  rw [Ideal.hostReduceAdd_single h' h]
  exact congrArg (_ + ·) (Finset.sum_congr rfl fun k _ => congrArg x (Cert.Lib.RowReductions.lift_row h p k))

end Cert.Lib.HostRows
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«152750_j55465207660970_2_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.AdjPayload.lean ====
/-
  The arithmetic of the second kernel's body and of the host operations before it, read at an index on the
  extended reals.

  The body's value at (p, q) is the entry  sq p + sq q - 2 * <row p, row q>  with the one word added where the global
  row number r * 256 + p equals q, multiplied by the guarded reciprocal of the sum of that row's entries.
  The host operations give the sums of squares of the rows as a column and as a row.
-/
import proofs.«152750_j55465207660970_2_alg».proof.Proof.Gen.KernelIdeal.Launch
import proofs.«152750_j55465207660970_2_alg».proof.Proof.Gen.KernelIdeal.Skeleton
import proofs.«152750_j55465207660970_2_alg».proof.Proof.Spec
import proofs.«152750_j55465207660970_2_alg».proof.Proof.LibRowReductions
import proofs.«152750_j55465207660970_2_alg».proof.Proof.LibHostRows
import proofs.«152750_j55465207660970_2_alg».proof.Proof.LibBlockReads
import proofs.«152750_j55465207660970_2_alg».proof.Proof.LibRowVector
import Idealize.ShloMosaic.Lib.StableHlo.Run
import Idealize.ShloMosaic.Lib.ValueLayout

noncomputable section

open scoped BigOperators

namespace Cert.KernelIdeal.AdjPay

open Cert.KernelIdeal Cert.KernelIdeal.Gen Idealize.ShloMosaic Idealize.ShloMosaic.TcCoe Idealize.SL.Sem Idealize.ShloMosaic.ValueIdx

/-- entry (p, q) of a block before the row normalisation, from the loaded values; r is the grid point (row block) -/
def blkLoc (r : Nat) (v3 : Vec Ideal S256x512 .f32) (v6 : Vec Ideal S8192x512 .bf16) (v8 : Vec Ideal S256x1 .f32)
    (v10 : Vec Ideal S1x8192 .f32) (p : Fin 256) (q : Fin 8192) : EReal :=
  (v8 (ix2 p 0) + v10 (ix2 0 q) - Cert.Spec.two * ∑ k : Fin 512, v3 (ix2 p k) * v6 (ix2 q k))
    + (if r * 256 + p.val = q.val then Cert.Spec.one else Cert.Spec.zero)

/-- The row normalisation the body ends with: each entry times the guarded reciprocal of its row's sum. -/
def norm (v27 : FVec Ideal S256x8192 .f32) : FVec Ideal S256x8192 .f32 :=
  have v28 : FVec Ideal S256 .f32 := multiReduction .add [1] S256 v27 0x00000000#32 reduces_S256x8192_S256 (.inl rfl) rfl
  have v29 : FVec Ideal S256x1 .f32 := shapeCast S256x1 v28 shapeCasts_S256_S256x1
  have cst_12 : Ideal .f32 := Scalar.ofBits .f32 0x00000000#32
  have v30 : FVec Ideal S256x1 .f32 := broadcast S256x1 cst_12
  have v31 : IVec S256x1 1 := cmpf .oeq v29 v30
  have cst_13 : Ideal .f32 := Scalar.ofBits .f32 0x3F800000#32
  have v32 : FVec Ideal S256x1 .f32 := broadcast S256x1 cst_13
  have v33 : FVec Ideal S256x1 .f32 := divf v32 v29
  have cst_14 : Ideal .f32 := Scalar.ofBits .f32 0x00000000#32
  have v34 : FVec Ideal S256x1 .f32 := broadcast S256x1 cst_14
  have v35 : FVec Ideal S256x1 .f32 := select v31 v34 v33
  have v36 : FVec Ideal S256x8192 .f32 := broadcastTo S256x8192 v35 broadcasts_S256x1_S256x8192
  mulf v27 v36

theorem norm_apply (v27 : FVec Ideal S256x8192 .f32) (p : Fin 256) (q : Fin 8192) :
    norm v27 (ix2 p q) = v27 (ix2 p q) * Cert.Spec.inv (∑ l : Fin 8192, v27 (ix2 p l)) := by
  unfold norm
  dsimp only
  refine congrArg (v27 (ix2 p q) * ·) ?_
  refine (Cert.Lib.RowReductions.broadcast_col_apply _ _ p q).trans ?_
  have hs : shapeCast S256x1
      (multiReduction (F := Ideal) .add [1] S256 v27 0x00000000#32 reduces_S256x8192_S256 (.inl rfl) rfl)
      shapeCasts_S256_S256x1 (ix2 p 0) = ∑ l : Fin 8192, v27 (ix2 p l) :=
    (Cert.Lib.RowReductions.shapeCast_col_apply _ _ p).trans
      (Cert.Lib.RowReductions.rowsum_apply v27 _ _ _ _ p)
  show Scalar.select (Ideal.cmp .oeq (shapeCast S256x1 _ shapeCasts_S256_S256x1 (ix2 p 0)) Cert.Spec.zero) Cert.Spec.zero
      (Ideal.div Cert.Spec.one (shapeCast S256x1 _ shapeCasts_S256_S256x1 (ix2 p 0))) = _
  rw [hs]
  rfl

/-- The diagonal test on 32-bit words: for a row block r below 32, a local row p below 256 and a column q below 8192
    nothing wraps, so the words r * 256 + p and q are equal exactly when the numbers are. -/
theorem diag_select {α : Type} (r p q : Nat) (hr : r < 32) (hp : p < 256) (hq : q < 8192) (A B : α) :
    Scalar.select (IntOp.cmpi .eq (IntOp.addi (Scalar.muli (BitVec.ofNat 32 r) 256#32) (BitVec.ofNat 32 p)) (BitVec.ofNat 32 q)) A B
      = if r * 256 + p = q then A else B := by
  have h : (BitVec.ofNat 32 r * 256#32 + BitVec.ofNat 32 p = BitVec.ofNat 32 q) ↔ r * 256 + p = q := by
    rw [← BitVec.toNat_inj]
    simp only [BitVec.toNat_add, BitVec.toNat_mul, BitVec.toNat_ofNat]
    omega
  show (if BitVec.ofBool (BitVec.ofNat 32 r * 256#32 + BitVec.ofNat 32 p == BitVec.ofNat 32 q) = 1 then A else B) = _
  by_cases hc : r * 256 + p = q
  · have hb : (BitVec.ofNat 32 r * 256#32 + BitVec.ofNat 32 p == BitVec.ofNat 32 q) = true :=
      beq_iff_eq.mpr (h.mpr hc)
    rw [if_pos hc, hb]
    exact if_pos rfl
  · have hb : (BitVec.ofNat 32 r * 256#32 + BitVec.ofNat 32 p == BitVec.ofNat 32 q) = false :=
      beq_eq_false_iff_ne.mpr fun e => hc (h.mp e)
    rw [if_neg hc, hb]
    exact if_neg (by decide)

/-- The block before the row normalisation, as the body spells it. -/
def pre (i : grid1.Coords) (v3 : Vec Ideal S256x512 .f32) (v6 : Vec Ideal S8192x512 .bf16) (v8 : Vec Ideal S256x1 .f32)
    (v10 : Vec Ideal S1x8192 .f32) : FVec Ideal S256x8192 .f32 :=
  let arg0 : BitVec 32 := BitVec.ofNat 32 (i 0).val
  have v4 : FVec Ideal S256x512 .f32 := shapeCast S256x512 v3 shapeCasts_S256x512_S256x512
  have v5 : FVec Ideal S256x512 .bf16 := truncf .bf16 v4 bitsLt_bf16_f32
  have cst : FVec Ideal S256x8192 .f32 := constant S256x8192 .f32 0x00000000#32
  have v7 : FVec Ideal S256x8192 .f32 := matmul (φ₂ := .bf16) dot_S256x512_S8192x512_S256x8192_1_1_0_0_n_n none v5 v6 cst
  have v9 : FVec Ideal S256x1 .f32 := shapeCast S256x1 v8 shapeCasts_S256x1_S256x1
  have v11 : FVec Ideal S1x8192 .f32 := shapeCast S1x8192 v10 shapeCasts_S1x8192_S1x8192
  have v12 : FVec Ideal S256x8192 .f32 := broadcastTo S256x8192 v9 broadcasts_S256x1_S256x8192
  have v13 : FVec Ideal S256x8192 .f32 := broadcastTo S256x8192 v11 broadcasts_S1x8192_S256x8192
  have v14 : FVec Ideal S256x8192 .f32 := addf v12 v13
  have cst_8 : Ideal .f32 := Scalar.ofBits .f32 0x40000000#32
  have v15 : FVec Ideal S256x8192 .f32 := broadcast S256x8192 cst_8
  have v16 : FVec Ideal S256x8192 .f32 := mulf v15 v7
  have v17 : FVec Ideal S256x8192 .f32 := subf v14 v16
  let v18 : BitVec 32 := Scalar.muli arg0 256#32
  have v19 : IVec S256x8192 32 := iota .tc S256x8192 32 [0] iota_S256x8192_d0_w32
  have v20 : IVec S256x8192 32 := broadcast S256x8192 v18
  have v21 : IVec S256x8192 32 := addi v20 v19
  have v22 : IVec S256x8192 32 := iota .tc S256x8192 32 [1] iota_S256x8192_d1_w32
  have v23 : IVec S256x8192 1 := cmpi .eq v21 v22
  have cst_9 : Ideal .f32 := Scalar.ofBits .f32 0x3F800000#32
  have cst_10 : Ideal .f32 := Scalar.ofBits .f32 0x00000000#32
  have v24 : FVec Ideal S256x8192 .f32 := broadcast S256x8192 cst_9
  have v25 : FVec Ideal S256x8192 .f32 := broadcast S256x8192 cst_10
  have v26 : FVec Ideal S256x8192 .f32 := select v23 v24 v25
  addf v17 v26

/-- The body's value is the normalisation of that block. -/
theorem pay2_eq (i : grid1.Coords) (v3 : Vec Ideal S256x512 .f32) (v6 : Vec Ideal S8192x512 .bf16) (v8 : Vec Ideal S256x1 .f32)
    (v10 : Vec Ideal S1x8192 .f32) : k1_pay2 (F := Ideal) i v3 v6 v8 v10 = norm (pre i v3 v6 v8 v10) := rfl

theorem pre_apply (i : grid1.Coords) (v3 : Vec Ideal S256x512 .f32) (v6 : Vec Ideal S8192x512 .bf16) (v8 : Vec Ideal S256x1 .f32)
    (v10 : Vec Ideal S1x8192 .f32) (p : Fin 256) (q : Fin 8192) :
    pre i v3 v6 v8 v10 (ix2 p q) = blkLoc (i 0).val v3 v6 v8 v10 p q := by
  unfold pre blkLoc
  dsimp only
  rw [shapeCast_self, shapeCast_self, shapeCast_self]
  show ((broadcastTo S256x8192 v8 broadcasts_S256x1_S256x8192 (ix2 p q)
          + broadcastTo S256x8192 v10 broadcasts_S1x8192_S256x8192 (ix2 p q))
        - Cert.Spec.two * matmul (F := Ideal) (φ₂ := .bf16) dot_S256x512_S8192x512_S256x8192_1_1_0_0_n_n none
            (truncf .bf16 v3 bitsLt_bf16_f32) v6 (constant S256x8192 .f32 0x00000000#32) (ix2 p q))
      + Scalar.select (IntOp.cmpi .eq (IntOp.addi (Scalar.muli (BitVec.ofNat 32 (i 0).val) 256#32)
            (iota .tc S256x8192 32 [0] iota_S256x8192_d0_w32 (ix2 p q)))
          (iota .tc S256x8192 32 [1] iota_S256x8192_d1_w32 (ix2 p q))) Cert.Spec.one Cert.Spec.zero = _
  rw [Cert.Lib.RowReductions.broadcast_col_apply, Cert.Lib.BlockReads.broadcast_row_apply,
    Cert.Lib.BlockReads.matmul_zero_cols_apply _ rfl rfl rfl rfl rfl rfl, iota_single_apply, iota_single_apply]
  refine congrArg₂ (· + ·) rfl ?_
  exact diag_select (i 0).val p.val q.val (i 0).isLt p.isLt q.isLt _ _

theorem pay2_apply (i : grid1.Coords) (v3 : Vec Ideal S256x512 .f32) (v6 : Vec Ideal S8192x512 .bf16) (v8 : Vec Ideal S256x1 .f32)
    (v10 : Vec Ideal S1x8192 .f32) (p : Fin 256) (q : Fin 8192) :
    k1_pay2 (F := Ideal) i v3 v6 v8 v10 (ix2 p q)
      = blkLoc (i 0).val v3 v6 v8 v10 p q * Cert.Spec.inv (∑ l : Fin 8192, blkLoc (i 0).val v3 v6 v8 v10 p l) := by
  rw [pay2_eq, norm_apply, pre_apply]
  exact congrArg (fun s => _ * Cert.Spec.inv s) (Finset.sum_congr rfl fun l _ => pre_apply i v3 v6 v8 v10 p l)

/-- The value stored into the scratch copy is the loaded value: the narrowing is the identity on the extended reals. -/
theorem pay1_apply (v39 : Vec Ideal S8192x512 .f32) (j : S8192x512.Idx) : k1_pay1 (F := Ideal) v39 j = v39 j := by
  unfold k1_pay1
  rw [shapeCast_self, shapeCast_self]
  rfl

/-- The host's sum of squares of row p, read from the column it is broadcast into. -/
theorem sq_col (f : FVec Ideal S8192x512 .f32) (p : Fin 8192) :
    broadcastInDim S8192x1 ![0] bcast_S8192_S8192x1_0
      (Host.reduceAdd (F := Ideal) (mulf f f) (constant (F := Ideal) S_ .f32 0x00000000#32) reducesTo_S8192x512_S8192_d1 h_S_)
      (ix2 p 0) = Cert.Spec.sq f p := by
  refine (Cert.Lib.RowReductions.bcastInDim_col_apply _ _ p).trans ?_
  refine (Cert.Lib.HostRows.host_rowsum_apply _ _ _ _ p).trans ?_
  show Ideal.ofBits .f32 0x00000000#32 + _ = _
  rw [Ideal.ofBits_zero_f32, zero_add]
  rfl

/-- The same sum read from the row the column is reshaped into: position q of the 1×8192 row is position q of the column. -/
theorem sq_row (f : FVec Ideal S8192x512 .f32) (q : Fin 8192) :
    shapeCast S1x8192
      (broadcastInDim S8192x1 ![0] bcast_S8192_S8192x1_0
        (Host.reduceAdd (F := Ideal) (mulf f f) (constant (F := Ideal) S_ .f32 0x00000000#32) reducesTo_S8192x512_S8192_d1 h_S_))
      shapeCasts_S8192x1_S1x8192 (ix2 0 q) = Cert.Spec.sq f q := by
  refine (shapeCast_apply _ _ _ (ix2 q 0) ?_).trans (sq_col f q)
  rw [Shape.rowMajor_val_two, Shape.rowMajor_val_two]
  show q.val * 1 + (0 : Nat) = (0 : Nat) * 8192 + q.val
  omega

theorem glue_v0 (W : Valuation τ sig (Elt Ideal)) :
    StableHlo.after (hostOps1 (F := Ideal)) W (Proc.devRef .tc main_v0) = W (Proc.devRef .tc main_v0) := by
  show StableHlo.after hostOps1 _ (Proc.devRef .tc main_v0) = _
  after_results

theorem glue_v3 (W : Valuation τ sig (Elt Ideal)) (p : Fin 8192) :
    (StableHlo.after (hostOps1 (F := Ideal)) W (Proc.devRef .tc main_v3) : S8192x1.Idx → EReal) (ix2 p 0)
      = Cert.Spec.sq (W (Proc.devRef .tc main_v0)) p := by
  after_results
  exact sq_col _ p

theorem glue_v4 (W : Valuation τ sig (Elt Ideal)) (q : Fin 8192) :
    (StableHlo.after (hostOps1 (F := Ideal)) W (Proc.devRef .tc main_v4) : S1x8192.Idx → EReal) (ix2 0 q)
      = Cert.Spec.sq (W (Proc.devRef .tc main_v0)) q := by
  after_results
  exact sq_row _ q

end Cert.KernelIdeal.AdjPay

end
-- ==== Proof.AdjValue.lean ====
/-
  The value of the second pipeline on the extended reals, from blocks to the array: each input block read as a
  restriction of its whole array, the scratch buffer as the feature array, each written strip as a block of the
  normalised matrix sq i + sq j - 2 * dot i j plus the identity, each row divided by its sum, and the output array
  after the last point.
-/
import proofs.«152750_j55465207660970_2_alg».proof.Proof.AdjFrame
import proofs.«152750_j55465207660970_2_alg».proof.Proof.AdjPayload
import proofs.«152750_j55465207660970_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.AdjValue

open Cert.KernelIdeal Cert.KernelIdeal.Gen Cert.KernelIdeal.Adj Cert.KernelIdeal.AdjPay
open Idealize.ShloMosaic Idealize.ShloMosaic.TcCoe Idealize.ShloMosaic.ValueIdx Idealize.SL.Sem
open Idealize.ShloMosaic.Pipeline (Dat)

/-! ## A strip's entry from the whole arrays -/

/-- Entry (p, q) of the strip at row block r, computed from blocks that are restrictions of the feature array f and
    of its row sums of squares, is entry (i, q) of the matrix before the row normalisation, i = 256 r + p. -/
theorem blkLoc_eq (f : Cert.Spec.SND.Idx → EReal) (r : Nat) (v3 : Vec Ideal S256x512 .f32) (v6 : Vec Ideal S8192x512 .bf16)
    (v8 : Vec Ideal S256x1 .f32) (v10 : Vec Ideal S1x8192 .f32) (p : Fin 256) (i : Fin 8192) (hi : i.val = r * 256 + p.val)
    (h3 : ∀ k : Fin 512, v3 (ix2 p k) = f (ix2 i k))
    (h6 : ∀ (q : Fin 8192) (k : Fin 512), v6 (ix2 q k) = f (ix2 q k))
    (h8 : v8 (ix2 p 0) = Cert.Spec.sq f i)
    (h10 : ∀ q : Fin 8192, v10 (ix2 0 q) = Cert.Spec.sq f q) (q : Fin 8192) :
    blkLoc r v3 v6 v8 v10 p q = Cert.Spec.blk f i q := by
  unfold blkLoc Cert.Spec.blk Cert.Spec.dot Cert.Spec.eye
  rw [h8, h10 q]
  have hs : (∑ k : Fin 512, v3 (ix2 p k) * v6 (ix2 q k)) = ∑ k : Fin 512, f (ix2 i k) * f (ix2 q k) :=
    Finset.sum_congr rfl fun k _ => by rw [h3 k, h6 q k]
  rw [hs]
  refine congrArg (fun z => Cert.Spec.sq f i + Cert.Spec.sq f q - Cert.Spec.two * (∑ k : Fin 512, f (ix2 i k) * f (ix2 q k)) + z) ?_
  exact if_congr (by rw [Fin.ext_iff, hi]) rfl rfl

/-! ## From blocks to the array -/

/-- The printed index maps, decided over the grid: at point t the strip windows are on block (t, 0), the whole-array
    windows on block (0, 0), and the grid coordinate is t. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ ((grid1.coords t) 0).val = t.val :=
  (by decide +kernel : ∀ t : Fin grid1.N, _)

variable (V : (c : Dev nD) → (b : Ref sig .tc) → Buf (Elt Ideal) ((c : Thread nD τ).loc b))

/-- Row p of point t's strip is row 256 t + p of the array. -/
abbrev rowOf (t : Fin cfg1.N) (p : Fin 256) : Fin 8192 :=
  ⟨t.val * 256 + p.val, by have ht : t.val < 32 := lt_of_lt_of_eq t.isLt N_1; have := p.isLt; omega⟩

/-- Window 0's block at point t reads the feature array at the strip's rows. -/
theorem iblk1_0_apply (c : Dev nD) (t : Fin cfg1.N) (p : Fin 256) (k : Fin 512) :
    (iblk1 V c 0 t : Vec Ideal S256x512 .f32) (ix2 p k) = (V c main_v0 : S8192x512.Idx → EReal) (ix2 (rowOf t p) k) := by
  obtain ⟨e0, e1, -, -, -, -, -, -, -, -, -⟩ := idx_facts t
  unfold iblk1
  rw [View.read_apply]
  show V c main_v0 _ = V c main_v0 _
  congr 1
  funext a
  apply Fin.ext
  match a with
  | ⟨0, _⟩ => show win1_0.index t (0 : Fin 2) * 256 + 1 * p.val = t.val * 256 + p.val; rw [e0]; omega
  | ⟨1, _⟩ => show win1_0.index t (1 : Fin 2) * 512 + 1 * k.val = k.val; rw [e1]; omega

/-- Window 1's block at any point is the whole feature array. -/
theorem iblk1_1_apply (c : Dev nD) (t : Fin cfg1.N) (q : Fin 8192) (k : Fin 512) :
    (iblk1 V c 1 t : Vec Ideal S8192x512 .f32) (ix2 q k) = (V c main_v0 : S8192x512.Idx → EReal) (ix2 q k) := by
  obtain ⟨-, -, e0, e1, -, -, -, -, -, -, -⟩ := idx_facts t
  unfold iblk1
  rw [View.read_apply]
  show V c main_v0 _ = V c main_v0 _
  congr 1
  funext a
  apply Fin.ext
  match a with
  | ⟨0, _⟩ => show win1_1.index t (0 : Fin 2) * 8192 + 1 * q.val = q.val; rw [e0]; omega
  | ⟨1, _⟩ => show win1_1.index t (1 : Fin 2) * 512 + 1 * k.val = k.val; rw [e1]; omega

/-- Window 2's block at point t reads the column of row sums at the strip's rows. -/
theorem iblk1_2_apply (c : Dev nD) (t : Fin cfg1.N) (p : Fin 256) :
    (iblk1 V c 2 t : Vec Ideal S256x1 .f32) (ix2 p (0 : Fin 1)) = (V c main_v3 : S8192x1.Idx → EReal) (ix2 (rowOf t p) (0 : Fin 1)) := by
  obtain ⟨-, -, -, -, e0, e1, -, -, -, -, -⟩ := idx_facts t
  unfold iblk1
  rw [View.read_apply]
  show V c main_v3 _ = V c main_v3 _
  congr 1
  funext a
  apply Fin.ext
  match a with
  | ⟨0, _⟩ => show win1_2.index t (0 : Fin 2) * 256 + 1 * p.val = t.val * 256 + p.val; rw [e0]; omega
  | ⟨1, _⟩ => show win1_2.index t (1 : Fin 2) * 1 + 1 * 0 = 0; rw [e1]

/-- Window 3's block at any point is the whole row of row sums. -/
theorem iblk1_3_apply (c : Dev nD) (t : Fin cfg1.N) (q : Fin 8192) :
    (iblk1 V c 3 t : Vec Ideal S1x8192 .f32) (ix2 (0 : Fin 1) q) = (V c main_v4 : S1x8192.Idx → EReal) (ix2 (0 : Fin 1) q) := by
  obtain ⟨-, -, -, -, -, -, e0, e1, -, -, -⟩ := idx_facts t
  unfold iblk1
  rw [View.read_apply]
  show V c main_v4 _ = V c main_v4 _
  congr 1
  funext a
  apply Fin.ext
  match a with
  | ⟨0, _⟩ => show win1_3.index t (0 : Fin 2) * 1 + 1 * 0 = 0; rw [e0]
  | ⟨1, _⟩ => show win1_3.index t (1 : Fin 2) * 8192 + 1 * q.val = q.val; rw [e1]; omega

/-- The output window's block at point t sits at the strip's rows. -/
theorem blk4_emb (t : Fin cfg1.N) (p : Fin 256) (q : Fin 8192) :
    (((cfg1.win 4).blk t).view.emb (ix2 p q) : S8192x8192.Idx) = ix2 (rowOf t p) q := by
  obtain ⟨-, -, -, -, -, -, -, -, e0, e1, -⟩ := idx_facts t
  funext a
  apply Fin.ext
  match a with
  | ⟨0, _⟩ => show win1_4.index t (0 : Fin 2) * 256 + 1 * p.val = t.val * 256 + p.val; rw [e0]; omega
  | ⟨1, _⟩ => show win1_4.index t (1 : Fin 2) * 8192 + 1 * q.val = q.val; rw [e1]; omega

/-- The scratch buffer holds the feature array. -/
theorem scr_apply (c : Dev nD) (q : Fin 8192) (k : Fin 512) :
    (scr V c : Vec Ideal S8192x512 .bf16) (ix2 q k) = (V c main_v0 : S8192x512.Idx → EReal) (ix2 q k) := by
  unfold scr
  exact (pay1_apply _ (ix2 q k)).trans (iblk1_1_apply V c t0 q k)

/-- What point t writes back is strip t of the normalised matrix of the feature array as the pipeline finds it:
    a strip holds whole rows, so a row's sum is taken inside one strip. -/
theorem flushed_eq (c : Dev nD)
    (hv3 : ∀ p : Fin 8192, (V c main_v3 : S8192x1.Idx → EReal) (ix2 p 0) = Cert.Spec.sq (V c main_v0) p)
    (hv4 : ∀ q : Fin 8192, (V c main_v4 : S1x8192.Idx → EReal) (ix2 0 q) = Cert.Spec.sq (V c main_v0) q)
    (t : Fin cfg1.N) :
    (dat1 (F := Ideal) V c).flushed 4 t
      = ((cfg1.win 4).blk t).view.read (Elt Ideal) (Cert.Spec.adj (V c main_v0)) := by
  show (cfg1.win 4).cut (grid1.coords t) ((dat1 V c).after 4 t) = _
  rw [after1_4]
  obtain ⟨-, -, -, -, -, -, -, -, -, -, eg⟩ := idx_facts t
  funext j
  obtain ⟨p, q, rfl⟩ : ∃ (p : Fin 256) (q : Fin 8192), j = ix2 p q := ⟨j 0, j 1, eq_ix2 j⟩
  refine (pay2_apply _ _ _ _ _ p q).trans ?_
  rw [View.read_apply, blk4_emb]
  have hb : ∀ l : Fin 8192, blkLoc ((grid1.coords t) 0).val (iblk1 V c 0 t) (scr V c) (iblk1 V c 2 t) (iblk1 V c 3 t) p l
      = Cert.Spec.blk (V c main_v0) (rowOf t p) l := fun l =>
    blkLoc_eq (V c main_v0) _ _ _ _ _ p (rowOf t p) (by rw [eg]) (fun k => iblk1_0_apply V c t p k)
      (fun q k => scr_apply V c q k) ((iblk1_2_apply V c t p).trans (hv3 _)) (fun q => (iblk1_3_apply V c t q).trans (hv4 q)) l
  show _ = Cert.Spec.blk (V c main_v0) (rowOf t p) q * Cert.Spec.inv (∑ l : Fin 8192, Cert.Spec.blk (V c main_v0) (rowOf t p) l)
  exact congrArg₂ (fun x s => x * Cert.Spec.inv s) (hb q) (Finset.sum_congr rfl fun l _ => hb l)

/-- An index of the array is in point t's block iff each coordinate is in the block's range on its axis. -/
theorem mem_blk (t : Fin cfg1.N) (i : S8192x8192.Idx) :
    i ∈ ((cfg1.win 4).blk t).view.set ↔ ∀ a : Fin 2, win1_4.index t a * S256x8192.size a ≤ (i a).val ∧ (i a).val < win1_4.index t a * S256x8192.size a + S256x8192.size a := by
  show i ∈ ((View.whole main_v5).slice (win1_4.rect t)).set ↔ _
  rw [View.set_slice_whole, Rect.mem_set_unit]
  exact Iff.rfl

/-- Every index of the array is in the block of the point its row divided by 256 names. -/
theorem cover (i : S8192x8192.Idx) :
    ∃ t : Fin cfg1.N, (cfg1.win 4).flush t = true ∧ i ∈ ((cfg1.win 4).blk t).view.set := by
  have hi0 : (i 0).val < 8192 := (i 0).isLt
  have hi1 : (i 1).val < 8192 := (i 1).isLt
  have hN : cfg1.N = 32 := N_1
  let t : Fin cfg1.N := ⟨(i 0).val / 256, by rw [hN]; omega⟩
  obtain ⟨-, -, -, -, -, -, -, -, e0, e1, -⟩ := idx_facts t
  have ht : t.val = (i 0).val / 256 := rfl
  refine ⟨t, flush1_4 t, ?_⟩
  rw [mem_blk]
  intro a
  match a with
  | ⟨0, _⟩ => show win1_4.index t (0 : Fin 2) * 256 ≤ (i 0).val ∧ (i 0).val < win1_4.index t (0 : Fin 2) * 256 + 256; rw [e0, ht]; omega
  | ⟨1, _⟩ => show win1_4.index t (1 : Fin 2) * 8192 ≤ (i 1).val ∧ (i 1).val < win1_4.index t (1 : Fin 2) * 8192 + 8192; rw [e1]; omega

/-- The output array after the last point: the normalised matrix of the feature array as the pipeline finds it,
    given that the two arrays of row sums hold the row sums of its squares. -/
theorem adj_final (V : (c : Dev nD) → (b : Ref sig .tc) → Buf (Elt Ideal) ((c : Thread nD τ).loc b)) (c : Dev nD)
    (hv3 : ∀ p : Fin 8192, (V c main_v3 : S8192x1.Idx → EReal) (ix2 p 0) = Cert.Spec.sq (V c main_v0) p)
    (hv4 : ∀ q : Fin 8192, (V c main_v4 : S1x8192.Idx → EReal) (ix2 0 q) = Cert.Spec.sq (V c main_v0) q) :
    (Cert.KernelIdeal.Adj.dat1 (F := Ideal) V c).arrAt 4 cfg1.N = Cert.Spec.adj (V c main_v0) :=
  (dat1 (F := Ideal) V c).arrAt_eq_of_cover 4 (Cert.Spec.adj (V c main_v0))
    (fun t _ => flushed_eq V c hv3 hv4 t) cover

end Cert.KernelIdeal.AdjValue

end
-- ==== Proof.RefValue.lean ====
/-
  The reference program read as the two specification arrays.

  Its second result is the array of squared differences with each row divided by its sum; its first result is,
  for f that array, the matrix sq i + sq j - 2 * dot i j, made symmetric by a maximum with its transpose (which
  changes nothing, the matrix being symmetric already), with the identity added and each row divided by its sum.
  Both are read index by index through the generated stage lemmas; the first result is read as a function of
  the second, which is never opened there.
-/
import proofs.«152750_j55465207660970_2_alg».proof.Proof.Gen.ReferenceIdeal.Run
import proofs.«152750_j55465207660970_2_alg».proof.Proof.Gen.ReferenceIdeal.Read
import proofs.«152750_j55465207660970_2_alg».proof.Proof.Spec
import proofs.«152750_j55465207660970_2_alg».proof.Proof.LibRowReductions
import proofs.«152750_j55465207660970_2_alg».proof.Proof.LibHostRows
import proofs.«152750_j55465207660970_2_alg».proof.Proof.LibBlockReads
import proofs.«152750_j55465207660970_2_alg».proof.Proof.LibRowVector

noncomputable section

namespace Cert.ReferenceIdeal.RefValue

open Cert.ReferenceIdeal Cert.ReferenceIdeal.Gen Idealize.ShloMosaic Idealize.ShloMosaic.TcCoe Idealize.SL.Sem Idealize.ShloMosaic.ValueIdx
open scoped BigOperators

/-- An argument array: rows by features. -/
abbrev Arr : Type := (⟨S8192x512, .f32⟩ : BufTy).Contents (Elt Ideal)

/-- The zero word denotes zero, as the initial value of a host sum. -/
theorem zero_word : FloatOps.ofBits (F := Ideal) .f32 0x00000000#32 = (0 : EReal) := by
  rw [Ideal.ofBits_def, Ideal.ofBits_zero_f32]

/-- The row sums of the squared differences. -/
theorem v2_at (a b : Arr) (i : Fin 8192) :
    Read.val_main_v2 (F := Ideal) a b (ix1 i) = ∑ k : Fin 512, Cert.Spec.sqd a b i k := by
  rw [Read.val_main_v2_apply, Read.val_main_cst_apply, zero_word, zero_add]
  refine Finset.sum_congr rfl fun k _ => ?_
  have e : Read.idx_main_v2 (ix1 i) k = ix2 i k := funext fun d => match d with
    | ⟨0, _⟩ => rfl
    | ⟨1, _⟩ => rfl
  rw [e]
  rfl

/-- The guarded reciprocal of a row sum, as the column the program stores it in. -/
theorem v8_at (a b : Arr) (i : Fin 8192) :
    Read.val_main_v8 (F := Ideal) a b (ix2 i (0 : Fin 1)) = Cert.Spec.inv (∑ k : Fin 512, Cert.Spec.sqd a b i k) := by
  have e3 : Read.idx_main_v3 (ix2 i (0 : Fin 1)) = ix1 i := funext fun d => match d with
    | ⟨0, _⟩ => rfl
  have h3 : Read.val_main_v3 (F := Ideal) a b (ix2 i (0 : Fin 1)) = ∑ k : Fin 512, Cert.Spec.sqd a b i k := by
    rw [Read.val_main_v3_apply, e3, v2_at]
  rw [Read.val_main_v8_apply, Read.val_main_v5_apply, Read.val_main_v7_apply, h3,
    Read.val_main_v4_apply, Read.val_main_cst_0_apply, Read.val_main_call0_v1_apply, Read.val_main_call0_v0_apply,
    Read.val_main_cst_2_apply, Read.val_main_v6_apply, Read.val_main_cst_1_apply]
  rfl

/-- The second result: the normalised squared differences. -/
theorem feat_eq (a b : Arr) : Read.val_main_v10 (F := Ideal) a b = Cert.Spec.feat a b := by
  funext j
  obtain ⟨i, k, rfl⟩ : ∃ (i : Fin 8192) (k : Fin 512), j = ix2 i k := ⟨j 0, j 1, eq_ix2 j⟩
  have e9 : Read.idx_main_v9 (ix2 i k) = ix2 i (0 : Fin 1) := funext fun d => match d with
    | ⟨0, _⟩ => rfl
    | ⟨1, _⟩ => rfl
  rw [Read.val_main_v10_apply, Read.val_main_v9_apply, e9, v8_at]
  rfl

/-- The one word denotes one. -/
theorem one_word : Ideal.ofBits .f32 0x3F800000#32 = (1 : EReal) := by
  simp [Ideal.ofBits, Ideal.ieee, -EReal.coe_mul]; norm_num

/-- A set bit converts to the one word, a clear bit to the zero word. -/
theorem uitofp_one : FloatOps.uitofp (F := Ideal) .f32 (1#1 : BitVec 1) = Cert.Spec.one := by
  show (((1#1 : BitVec 1).toNat : ℝ) : EReal) = Ideal.ofBits .f32 0x3F800000#32
  rw [one_word]
  have : (1#1 : BitVec 1).toNat = 1 := by decide
  rw [this, Nat.cast_one, EReal.coe_one]

theorem uitofp_zero : FloatOps.uitofp (F := Ideal) .f32 (0#1 : BitVec 1) = Cert.Spec.zero := by
  show (((0#1 : BitVec 1).toNat : ℝ) : EReal) = Ideal.ofBits .f32 0x00000000#32
  rw [Ideal.ofBits_zero_f32]
  have : (0#1 : BitVec 1).toNat = 0 := by decide
  rw [this, Nat.cast_zero, EReal.coe_zero]

/-- The two 32-bit counters along the two axes agree exactly on the diagonal: the row and column numbers are below 2^32. -/
theorem eye_word (i j : Fin 8192) :
    FloatOps.uitofp (F := Ideal) .f32 (IntOp.cmpi .eq (IntOp.addi (BitVec.ofNat 32 i.val) 0#32) (BitVec.ofNat 32 j.val))
      = Cert.Spec.eye i j := by
  unfold Cert.Spec.eye
  by_cases h : i = j
  · subst h
    have hc : IntOp.cmpi .eq (IntOp.addi (BitVec.ofNat 32 i.val) 0#32) (BitVec.ofNat 32 i.val) = 1#1 :=
      IntOp.cmpi_eq.mpr (by simp [IntOp.addi])
    rw [if_pos rfl, hc, uitofp_one]
  · have hc : IntOp.cmpi .eq (IntOp.addi (BitVec.ofNat 32 i.val) 0#32) (BitVec.ofNat 32 j.val) = 0#1 := by
      rcases BitVec.eq_zero_or_eq_one (IntOp.cmpi .eq (IntOp.addi (BitVec.ofNat 32 i.val) 0#32) (BitVec.ofNat 32 j.val)) with h0 | h1
      · exact h0
      · exfalso
        apply h
        have h2 := congrArg BitVec.toNat (IntOp.cmpi_eq.mp h1)
        simp only [IntOp.addi, BitVec.add_zero, BitVec.toNat_ofNat] at h2
        have hi := i.isLt
        have hj := j.isLt
        exact Fin.ext (by omega)
    rw [if_neg h, hc, uitofp_zero]

/-- Entry (i, j) before the symmetrisation: sq i + sq j - 2 * dot i j. -/
def pre (f : Cert.Spec.SND.Idx → EReal) (i j : Fin 8192) : EReal :=
  Cert.Spec.sq f i + Cert.Spec.sq f j - Cert.Spec.two * Cert.Spec.dot f i j

/-- It is symmetric: addition commutes and so does the scalar product. -/
theorem pre_symm (f : Cert.Spec.SND.Idx → EReal) (i j : Fin 8192) : pre f j i = pre f i j := by
  unfold pre
  rw [add_comm (Cert.Spec.sq f j) (Cert.Spec.sq f i), Cert.Spec.dot_comm f j i]

/-- The row sums of the squares of the feature array. -/
theorem v12_at (a b : Arr) (i : Fin 8192) :
    Read.val_main_v12 (F := Ideal) a b (ix1 i) = Cert.Spec.sq (Read.val_main_v10 (F := Ideal) a b) i := by
  rw [Read.val_main_v12_apply, Read.val_main_cst_3_apply, zero_word, zero_add, Cert.Spec.sq]
  refine Finset.sum_congr rfl fun k _ => ?_
  have e : Read.idx_main_v12 (ix1 i) k = ix2 i k := funext fun d => match d with
    | ⟨0, _⟩ => rfl
    | ⟨1, _⟩ => rfl
  rw [e, Read.val_main_v11_apply, Ideal.mulf_def]

/-- The sum of the column copy and the row copy of those sums. -/
theorem v17_at (a b : Arr) (i j : Fin 8192) :
    Read.val_main_v17 (F := Ideal) a b (ix2 i j)
      = Cert.Spec.sq (Read.val_main_v10 (F := Ideal) a b) i + Cert.Spec.sq (Read.val_main_v10 (F := Ideal) a b) j := by
  have e15 : Read.idx_main_v15 (ix2 i j) = ix2 i (0 : Fin 1) := funext fun d => match d with
    | ⟨0, _⟩ => rfl
    | ⟨1, _⟩ => rfl
  have e13 : Read.idx_main_v13 (ix2 i (0 : Fin 1)) = ix1 i := funext fun d => match d with
    | ⟨0, _⟩ => rfl
  have e16 : Read.idx_main_v16 (ix2 i j) = ix2 (0 : Fin 1) j := funext fun d => match d with
    | ⟨0, _⟩ => rfl
    | ⟨1, _⟩ => rfl
  have e14 : Read.idx_main_v14 (ix2 (0 : Fin 1) j) = ix1 j := funext fun d => match d with
    | ⟨0, _⟩ => rfl
  rw [Read.val_main_v17_apply, Read.val_main_v15_apply, e15, Read.val_main_v13_apply, e13, Read.val_main_v16_apply, e16,
    Read.val_main_v14_apply, e14, v12_at, v12_at, Ideal.addf_def]

/-- The product with the transpose: entry (i, j) is the scalar product of rows i and j. -/
theorem v19_at (a b : Arr) (i j : Fin 8192) :
    Read.val_main_v19 (F := Ideal) a b (ix2 i j) = Cert.Spec.dot (Read.val_main_v10 (F := Ideal) a b) i j := by
  rw [Read.val_main_v19_apply, Cert.Spec.dot]
  refine Finset.sum_congr rfl fun k _ => ?_
  have el : Read.lidx_main_v19 (ix2 i j) k = ix2 i k := funext fun d => match d with
    | ⟨0, _⟩ => rfl
    | ⟨1, _⟩ => rfl
  have er : Read.idx_main_v18 (Read.ridx_main_v19 (ix2 i j) k) = ix2 j k := funext fun d => match d with
    | ⟨0, _⟩ => rfl
    | ⟨1, _⟩ => rfl
  rw [Read.val_main_v18_apply, el, er]

/-- Entry (i, j) before the symmetrisation. -/
theorem v22_at (a b : Arr) (i j : Fin 8192) :
    Read.val_main_v22 (F := Ideal) a b (ix2 i j) = pre (Read.val_main_v10 (F := Ideal) a b) i j := by
  rw [Read.val_main_v22_apply, v17_at, Read.val_main_v21_apply, Read.val_main_v20_apply, Read.val_main_cst_4_apply, v19_at,
    Ideal.subf_def, Ideal.mulf_def, Ideal.ofBits_def, pre]

/-- The maximum with the transposed copy changes nothing: the matrix is symmetric. -/
theorem v24_at (a b : Arr) (i j : Fin 8192) :
    Read.val_main_v24 (F := Ideal) a b (ix2 i j) = pre (Read.val_main_v10 (F := Ideal) a b) i j := by
  have e23 : Read.idx_main_v23 (ix2 i j) = ix2 j i := funext fun d => match d with
    | ⟨0, _⟩ => rfl
    | ⟨1, _⟩ => rfl
  rw [Read.val_main_v24_apply, Read.val_main_v23_apply, e23, v22_at, v22_at, Ideal.maximumf_def, pre_symm, max_self]

/-- The identity matrix the program builds from two counters. -/
theorem v30_at (i j : Fin 8192) : Read.val_main_v30 (F := Ideal) (ix2 i j) = Cert.Spec.eye i j := by
  rw [Read.val_main_v30_apply, Read.val_main_v29_apply, Read.val_main_v28_apply, Read.val_main_v25_apply,
    Read.val_main_v27_apply, Read.val_main_c_apply, Read.val_main_v26_apply]
  exact eye_word i j

/-- Entry (i, j) before the row normalisation. -/
theorem v31_at (a b : Arr) (i j : Fin 8192) :
    Read.val_main_v31 (F := Ideal) a b (ix2 i j) = Cert.Spec.blk (Read.val_main_v10 (F := Ideal) a b) i j := by
  rw [Read.val_main_v31_apply, v24_at, v30_at, Ideal.addf_def, Cert.Spec.blk, pre]

/-- The row sums of that matrix. -/
theorem v32_at (a b : Arr) (i : Fin 8192) :
    Read.val_main_v32 (F := Ideal) a b (ix1 i) = ∑ l : Fin 8192, Cert.Spec.blk (Read.val_main_v10 (F := Ideal) a b) i l := by
  rw [Read.val_main_v32_apply, Read.val_main_cst_5_apply, zero_word, zero_add]
  refine Finset.sum_congr rfl fun l _ => ?_
  have e : Read.idx_main_v32 (ix1 i) l = ix2 i l := funext fun d => match d with
    | ⟨0, _⟩ => rfl
    | ⟨1, _⟩ => rfl
  rw [e, v31_at]

/-- The guarded reciprocal of a row sum, as the column the program stores it in. -/
theorem v38_at (a b : Arr) (i : Fin 8192) :
    Read.val_main_v38 (F := Ideal) a b (ix2 i (0 : Fin 1))
      = Cert.Spec.inv (∑ l : Fin 8192, Cert.Spec.blk (Read.val_main_v10 (F := Ideal) a b) i l) := by
  have e33 : Read.idx_main_v33 (ix2 i (0 : Fin 1)) = ix1 i := funext fun d => match d with
    | ⟨0, _⟩ => rfl
  have h33 : Read.val_main_v33 (F := Ideal) a b (ix2 i (0 : Fin 1))
      = ∑ l : Fin 8192, Cert.Spec.blk (Read.val_main_v10 (F := Ideal) a b) i l := by
    rw [Read.val_main_v33_apply, e33, v32_at]
  rw [Read.val_main_v38_apply, Read.val_main_v35_apply, Read.val_main_v37_apply, h33,
    Read.val_main_v34_apply, Read.val_main_cst_6_apply, Read.val_main_call1_v1_apply, Read.val_main_call1_v0_apply,
    Read.val_main_cst_8_apply, Read.val_main_v36_apply, Read.val_main_cst_7_apply]
  rfl

/-- The first result as a function of the second. -/
theorem adj_eq (a b : Arr) :
    Read.val_main_v40 (F := Ideal) a b = Cert.Spec.adj (Read.val_main_v10 (F := Ideal) a b) := by
  funext q
  obtain ⟨i, j, rfl⟩ : ∃ (i j : Fin 8192), q = ix2 i j := ⟨q 0, q 1, eq_ix2 q⟩
  have e39 : Read.idx_main_v39 (ix2 i j) = ix2 i (0 : Fin 1) := funext fun d => match d with
    | ⟨0, _⟩ => rfl
    | ⟨1, _⟩ => rfl
  rw [Read.val_main_v40_apply, Read.val_main_v39_apply, e39, v38_at, v31_at, Ideal.mulf_def]
  rfl

/-- The reference run, read as the two specification arrays of its arguments. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v40) = Cert.Spec.adj (Cert.Spec.feat (m ((c.tc : Thread nD τ).loc main_arg0)) (m ((c.tc : Thread nD τ).loc main_arg1)))
      ∧ r.2.mem ((c.tc : Thread nD τ).loc main_v10) = Cert.Spec.feat (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
    obtain ⟨h40, h10, h0, h1⟩ := h c
    refine ⟨?_, ?_, h0, h1⟩
    · rw [h40, Read.val_main_v40_eq, adj_eq, feat_eq]
    · rw [h10, Read.val_main_v10_eq, feat_eq])
    (Cert.ReferenceIdeal.Value.run (F := Ideal) m ρ)

end Cert.ReferenceIdeal.RefValue

end
-- ==== Proof.Assemble.lean ====
/-
  The two kernel results as the specification's arrays of the launch arguments, and the algebraic claim from the
  kernel program's run with both results named.
-/
import proofs.«152750_j55465207660970_2_alg».proof.Defs
import proofs.«152750_j55465207660970_2_alg».proof.Proof.Gen.KernelIdeal
import proofs.«152750_j55465207660970_2_alg».proof.Proof.Gen.ReferenceIdeal
import proofs.«152750_j55465207660970_2_alg».proof.Proof.Gen.Pre_finite_inputs
import proofs.«152750_j55465207660970_2_alg».proof.Proof.RunDefs
import proofs.«152750_j55465207660970_2_alg».proof.Proof.FeatValue
import proofs.«152750_j55465207660970_2_alg».proof.Proof.AdjValue
import proofs.«152750_j55465207660970_2_alg».proof.Proof.AdjPayload
import proofs.«152750_j55465207660970_2_alg».proof.Proof.RefValue
import proofs.«152750_j55465207660970_2_alg».proof.Proof.Spec

set_option maxRecDepth 16384

noncomputable section

namespace Cert.Proof.Assemble

open Cert.KernelIdeal Cert.KernelIdeal.Gen
open Idealize.ShloMosaic Idealize.ShloMosaic.TcCoe Idealize.ShloMosaic.ValueIdx Idealize.SL.Sem

/-- The first kernel's result is the normalised squared differences of the launch arguments. -/
theorem out0_eq (m : (ℓ : Loc nD τ sig) → Buf (Elt Ideal) ℓ) (c : Dev nD) :
    Cert.KernelIdeal.Run.out0 (F := Ideal) m c
      = Cert.Spec.feat (m ((c.tc : Thread nD τ).loc main_arg0)) (m ((c.tc : Thread nD τ).loc main_arg1)) := by
  unfold Cert.KernelIdeal.Run.out0
  exact Cert.KernelIdeal.FeatValue.feat_final (Cert.KernelIdeal.Run.Va m) c

/-- The host operations between the kernels leave the first kernel's result where it is: the second kernel finds it
    in its first two windows' array. -/
theorem Vb_v0 (m : (ℓ : Loc nD τ sig) → Buf (Elt Ideal) ℓ) (c : Dev nD) :
    Cert.KernelIdeal.Run.Vb (F := Ideal) m c main_v0 = Cert.KernelIdeal.Run.out0 (F := Ideal) m c := by
  show StableHlo.after (hostOps1 (F := Ideal)) (Cert.KernelIdeal.Run.W1 m c) (Proc.devRef .tc main_v0) = _
  rw [Cert.KernelIdeal.AdjPay.glue_v0]
  exact Function.update_self _ _ _

/-- The second kernel's result is the normalised matrix of the first kernel's result. -/
theorem out5_eq (m : (ℓ : Loc nD τ sig) → Buf (Elt Ideal) ℓ) (c : Dev nD) :
    Cert.KernelIdeal.Run.out5 (F := Ideal) m c
      = Cert.Spec.adj (Cert.Spec.feat (m ((c.tc : Thread nD τ).loc main_arg0)) (m ((c.tc : Thread nD τ).loc main_arg1))) := by
  unfold Cert.KernelIdeal.Run.out5
  have h0 := Vb_v0 m c
  have hv3 : ∀ p : Fin 8192, (Cert.KernelIdeal.Run.Vb (F := Ideal) m c main_v3 : S8192x1.Idx → EReal) (ix2 p 0)
      = Cert.Spec.sq (Cert.KernelIdeal.Run.Vb (F := Ideal) m c main_v0) p := fun p => by
    rw [h0]
    refine (Cert.KernelIdeal.AdjPay.glue_v3 (Cert.KernelIdeal.Run.W1 m c) p).trans ?_
    exact congrArg (fun f => Cert.Spec.sq f p) (Function.update_self _ _ _)
  have hv4 : ∀ q : Fin 8192, (Cert.KernelIdeal.Run.Vb (F := Ideal) m c main_v4 : S1x8192.Idx → EReal) (ix2 0 q)
      = Cert.Spec.sq (Cert.KernelIdeal.Run.Vb (F := Ideal) m c main_v0) q := fun q => by
    rw [h0]
    refine (Cert.KernelIdeal.AdjPay.glue_v4 (Cert.KernelIdeal.Run.W1 m c) q).trans ?_
    exact congrArg (fun f => Cert.Spec.sq f q) (Function.update_self _ _ _)
  rw [Cert.KernelIdeal.AdjValue.adj_final (Cert.KernelIdeal.Run.Vb m) c hv3 hv4, h0, out0_eq]

/-- The algebraic claim, from the kernel program's run with both results named: both programs end at the
    specification's two arrays of the arguments they agree on. -/
theorem algebraic_of_run
    (hrun : ∀ (m : (ℓ : Loc nD τ sig) → Buf (Elt Ideal) ℓ) (ρ : Dev nD → PrngReg),
      θ_run (Cert.KernelIdeal.defs (F := Ideal)) (onTc (τ := τ) (Cert.KernelIdeal.main (F := Ideal))) ⟨m, fun _ => 0, ρ⟩ (fun r => ∀ c : Dev nD,
        r.2.mem ((c.tc : Thread nD τ).loc main_v5) = Cert.KernelIdeal.Run.out5 m c
        ∧ r.2.mem ((c.tc : Thread nD τ).loc main_v0) = Cert.KernelIdeal.Run.out0 m c
        ∧ r.2.mem ((c.tc : Thread nD τ).loc main_arg0) = m ((c.tc : Thread nD τ).loc main_arg0)
        ∧ r.2.mem ((c.tc : Thread nD τ).loc main_arg1) = m ((c.tc : Thread nD τ).loc main_arg1))) :
    Cert.algebraic_KernelIdeal_ReferenceIdeal := by
  intro m ρ m' ρ' _ hagree
  refine ⟨fun c => Cert.Spec.adj (Cert.Spec.feat (m ((c.tc : Thread nD τ).loc main_arg0)) (m ((c.tc : Thread nD τ).loc main_arg1))),
    fun c => Cert.Spec.feat (m ((c.tc : Thread nD τ).loc main_arg0)) (m ((c.tc : Thread nD τ).loc main_arg1)), ?_, ?_⟩
  · refine (θ_run (Cert.KernelIdeal.defs (F := Ideal)) _ _).mono (fun _ h c => ?_) (hrun m ρ)
    obtain ⟨h5, h0, ha0, ha1⟩ := h c
    exact ⟨h5.trans (out5_eq m c), h0.trans (out0_eq m c), ha0, ha1⟩
  · refine (θ_run (Cert.ReferenceIdeal.defs (F := Ideal)) _ _).mono (fun _ h c => ?_) (Cert.ReferenceIdeal.RefValue.run m' ρ')
    obtain ⟨h40, h10, ha0, ha1⟩ := h c
    refine ⟨h40.trans ?_, h10.trans ?_, ha0, ha1⟩
    · rw [(hagree c).1, (hagree c).2]
    · rw [(hagree c).1, (hagree c).2]

end Cert.Proof.Assemble

end
-- ==== Proof.lean ====
/-
  The certificate of the pairwise-distance adjacency kernel against its reference.

  Both programs compute, from two 8192×512 arrays q and g,
    feature = (q - g)², each row divided by its sum (a row whose sum is the zero word is multiplied by the zero word),
    adj     = sq i + sq j - 2 · ⟨feature i, feature j⟩ + [i = j], each row divided by its sum under the same convention,
  where sq i is the sum of the squares of row i of feature (Proof/Spec.lean states both as whole-array functions on
  the extended reals).

  The kernel program is two kernel regions with five host operations between them. The first region writes feature
  in blocks of 1024 rows. The host operations compute the row sums of squares as a column and as a row. The second
  region writes adj in strips of 256 rows; it is handed the feature array twice (a strip of rows, and the whole
  array, which it copies once into a scratch buffer at its first grid point and reads from there at every point).
  The reference symmetrises its matrix by an elementwise maximum with the transpose, which the kernel leaves out: on
  the extended reals the matrix is already symmetric, because addition and multiplication commute, so the maximum
  of an entry with its mirror image is the entry.

  * Each kernel program's run (Proof/Run.lean for the idealized program, Proof/RunK.lean the same text for the
    word-level program): every execution terminates without a fault, the argument arrays end unchanged, and the two
    result arrays end at what the two regions' write-backs leave. The frames are this run with the results dropped.
  * At the ideal values those two arrays are feature and adj of the arguments (Proof/FeatValue.lean,
    Proof/AdjPayload.lean, Proof/AdjValue.lean, assembled in Proof/Assemble.lean), and so are the reference's results
    (Proof/RefValue.lean, over the reference's generated run). No finiteness is used: the two sides agree on all
    extended reals.
  * The idealization rewrote nothing, so there is nothing to preserve.
-/
import proofs.«152750_j55465207660970_2_alg».proof.Defs
import proofs.«152750_j55465207660970_2_alg».proof.Proof.Gen.Kernel
import proofs.«152750_j55465207660970_2_alg».proof.Proof.Gen.KernelIdeal
import proofs.«152750_j55465207660970_2_alg».proof.Proof.Gen.ReferenceIdeal
import proofs.«152750_j55465207660970_2_alg».proof.Proof.Gen.Pre_finite_inputs
import proofs.«152750_j55465207660970_2_alg».proof.Proof.Gen.ReferenceIdeal.Run
import proofs.«152750_j55465207660970_2_alg».proof.Proof.Gen.ReferenceIdeal.Read
import proofs.«152750_j55465207660970_2_alg».proof.Proof.RunK
import proofs.«152750_j55465207660970_2_alg».proof.Proof.Run
import proofs.«152750_j55465207660970_2_alg».proof.Proof.Assemble
import Idealize.ShloMosaic.Adequacy
import Idealize.ShloMosaic.Init

noncomputable section

namespace Cert.Proof

open Idealize.ShloMosaic Idealize.SL.Sem

/-- The word-level kernel program runs to the end, faults nowhere and leaves its arguments unchanged: its run with
    the two results dropped. -/
theorem frame_k : Cert.frame_Kernel := fun m ρ _ =>
  (θ_run (Cert.Kernel.defs (F := Bits)) _ _).mono (fun _ h c => ⟨(h c).2.2.1, (h c).2.2.2⟩) (Cert.Kernel.Run.run_named (F := Bits) m ρ)

/-- The same of the idealized kernel program. -/
theorem frame_ki : Cert.frame_KernelIdeal := fun m ρ _ =>
  (θ_run (Cert.KernelIdeal.defs (F := Ideal)) _ _).mono (fun _ h c => ⟨(h c).2.2.1, (h c).2.2.2⟩) (Cert.KernelIdeal.Run.run_named (F := Ideal) m ρ)

/-- The reference is host operations only: its frame is its run with the results dropped. -/
theorem frame_ri : Cert.frame_ReferenceIdeal := fun m ρ _ =>
  (θ_run (Cert.ReferenceIdeal.defs (F := Ideal)) _ _).mono (fun _ h c => (h c).2.2) (Cert.ReferenceIdeal.Value.run (F := Ideal) m ρ)

/-- The idealized kernel program is the kernel program's own text read at the ideal values. -/
theorem preserves : Cert.preserves_Kernel_KernelIdeal := trivial

/-- At the ideal values both programs end with adj and feature of the arguments. -/
theorem algebraic : Cert.algebraic_KernelIdeal_ReferenceIdeal :=
  Cert.Proof.Assemble.algebraic_of_run fun m ρ => Cert.KernelIdeal.Run.run_named (F := Ideal) m ρ

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
